-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v80_0)) (v1 : (c : Dev Cert.KernelIdeal.nD) → Buf (Elt Ideal) ((c.tc : Thread Cert.KernelIdeal.nD Cert.KernelIdeal.τ).loc Cert.KernelIdeal.main_v80_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80_0) = v0 c
          ∧ r.2.mem ((c.tc : Thread Cert.KernelIdeal.nD Cert.KernelIdeal.τ).loc Cert.KernelIdeal.main_v80_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_v87) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1200000 : Shape := ⟨1, ![1200000]⟩
abbrev S4096x1 : Shape := ⟨2, ![4096, 1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel

variable [Facts]

def fn {F : FTy → Type} [FloatOps F] (main_arg0 : FVec F S100000x64 .f32) (main_arg1 : IVec S1200000 32) (main_arg2 : IVec S1200000 32) (main_arg3 : IVec S4096x1 32) (main_arg4 : IVec S4096x1 32) (main_arg5 : IVec S4096x1 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  main_v3
-- ==== Kernel.lean ====
abbrev S100000x64 : Shape := ⟨2, ![100000, 64]⟩
abbrev S1200000 : Shape := ⟨1, ![1200000]⟩
abbrev S4096x1 : Shape := ⟨2, ![4096, 1]⟩
abbrev S_ : Shape := ⟨0, ![]⟩
abbrev S100000 : Shape := ⟨1, ![100000]⟩
abbrev S1200000x1 : Shape := ⟨2, ![1200000, 1]⟩
abbrev S100000x1 : Shape := ⟨2, ![100000, 1]⟩
abbrev S1200000x64 : Shape := ⟨2, ![1200000, 64]⟩
abbrev S5000x64 : Shape := ⟨2, ![5000, 64]⟩
abbrev S4096 : Shape := ⟨1, ![4096]⟩
abbrev S4096x64 : Shape := ⟨2, ![4096, 64]⟩
abbrev S1024x64 : Shape := ⟨2, ![1024, 64]⟩
abbrev S1024x1 : Shape := ⟨2, ![1024, 1]⟩
abbrev S1024 : Shape := ⟨1, ![1024]⟩

abbrev nBuf : Space → Nat
  | .hbm => 109
  | .vmem => 20
  | .smem => 0
  | _ => 0

abbrev bufTy : (tb : Table) → Fin (tcTables nBuf tb) → BufTy
  | .hbm, ⟨0, _⟩ => ⟨S100000x64, .f32⟩
  | .hbm, ⟨1, _⟩ => ⟨S1200000, .i32⟩
  | .hbm, ⟨2, _⟩ => ⟨S1200000, .i32⟩
  | .hbm, ⟨3, _⟩ => ⟨S4096x1, .i32⟩
  | .hbm, ⟨4, _⟩ => ⟨S4096x1, .i32⟩
  | .hbm, ⟨5, _⟩ => ⟨S4096x1, .i32⟩
  | .hbm, ⟨6, _⟩ => ⟨S_, .f32⟩
  | .hbm, ⟨7, _⟩ => ⟨S1200000, .f32⟩
  | .hbm, ⟨8, _⟩ => ⟨S_, .f32⟩
  | .hbm, ⟨9, _⟩ => ⟨S100000, .f32⟩
  | .hbm, ⟨10, _⟩ => ⟨S1200000x1, .i32⟩
  | .hbm, ⟨11, _⟩ => ⟨S100000, .f32⟩
  | .hbm, ⟨12, _⟩ => ⟨S_, .f32⟩
  | .hbm, ⟨13, _⟩ => ⟨S100000, .f32⟩
  | .hbm, ⟨14, _⟩ => ⟨S100000, .f32⟩
  | .hbm, ⟨15, _⟩ => ⟨S100000x1, .f32⟩
  | .hbm, ⟨16, _⟩ => ⟨S_, .f32⟩
  | .hbm, ⟨17, _⟩ => ⟨S100000x1, .f32⟩
  | .hbm, ⟨18, _⟩ => ⟨S100000x1, .f32⟩
  | .hbm, ⟨19, _⟩ => ⟨S100000x64, .f32⟩
  | .hbm, ⟨20, _⟩ => ⟨S100000x64, .f32⟩
  | .hbm, ⟨21, _⟩ => ⟨S_, .i32⟩
  | .hbm, ⟨22, _⟩ => ⟨S1200000, .i32⟩
  | .hbm, ⟨23, _⟩ => ⟨S1200000, .i1⟩
  | .hbm, ⟨24, _⟩ => ⟨S_, .i32⟩
  | .hbm, ⟨25, _⟩ => ⟨S1200000, .i32⟩
  | .hbm, ⟨26, _⟩ => ⟨S1200000, .i32⟩
  | .hbm, ⟨27, _⟩ => ⟨S1200000, .i32⟩
  | .hbm, ⟨28, _⟩ => ⟨S1200000x1, .i32⟩
  | .hbm, ⟨29, _⟩ => ⟨S1200000x64, .f32⟩
  | .hbm, ⟨30, _⟩ => ⟨S_, .f32⟩
  | .hbm, ⟨31, _⟩ => ⟨S100000x64, .f32⟩
  | .hbm, ⟨32, _⟩ => ⟨S1200000x1, .i32⟩
  | .hbm, ⟨33, _⟩ => ⟨S100000x64, .f32⟩
  | .hbm, ⟨34, _⟩ => ⟨S100000x64, .f32⟩
  | .hbm, ⟨35, _⟩ => ⟨S100000x64, .f32⟩
  | .hbm, ⟨36, _⟩ => ⟨S100000x64, .f32⟩
  | .hbm, ⟨37, _⟩ => ⟨S100000x64, .f32⟩
  | .hbm, ⟨38, _⟩ => ⟨S_, .i32⟩
  | .hbm, ⟨39, _⟩ => ⟨S1200000, .i32⟩
  | .hbm, ⟨40, _⟩ => ⟨S1200000, .i1⟩
  | .hbm, ⟨41, _⟩ => ⟨S_, .i32⟩
  | .hbm, ⟨42, _⟩ => ⟨S1200000, .i32⟩
  | .hbm, ⟨43, _⟩ => ⟨S1200000, .i32⟩
  | .hbm, ⟨44, _⟩ => ⟨S1200000, .i32⟩
  | .hbm, ⟨45, _⟩ => ⟨S1200000x1, .i32⟩
  | .hbm, ⟨46, _⟩ => ⟨S1200000x64, .f32⟩
  | .hbm, ⟨47, _⟩ => ⟨S_, .f32⟩
  | .hbm, ⟨48, _⟩ => ⟨S100000x64, .f32⟩
  | .hbm, ⟨49, _⟩ => ⟨S1200000x1, .i32⟩
  | .hbm, ⟨50, _⟩ => ⟨S100000x64, .f32⟩
  | .hbm, ⟨51, _⟩ => ⟨S100000x64, .f32⟩
  | .hbm, ⟨52, _⟩ => ⟨S100000x64, .f32⟩
  | .hbm, ⟨53, _⟩ => ⟨S100000x64, .f32⟩
  | .hbm, ⟨54, _⟩ => ⟨S100000x64, .f32⟩
  | .hbm, ⟨55, _⟩ => ⟨S_, .i32⟩
  | .hbm, ⟨56, _⟩ => ⟨S1200000, .i32⟩
  | .hbm, ⟨57, _⟩ => ⟨S1200000, .i1⟩
  | .hbm, ⟨58, _⟩ => ⟨S_, .i32⟩
  | .hbm, ⟨59, _⟩ => ⟨S1200000, .i32⟩
  | .hbm, ⟨60, _⟩ => ⟨S1200000, .i32⟩
  | .hbm, ⟨61, _⟩ => ⟨S1200000, .i32⟩
  | .hbm, ⟨62, _⟩ => ⟨S1200000x1, .i32⟩
  | .hbm, ⟨63, _⟩ => ⟨S1200000x64, .f32⟩
  | .hbm, ⟨64, _⟩ => ⟨S_, .f32⟩
  | .hbm, ⟨65, _⟩ => ⟨S100000x64, .f32⟩
  | .hbm, ⟨66, _⟩ => ⟨S1200000x1, .i32⟩
  | .hbm, ⟨67, _⟩ => ⟨S100000x64, .f32⟩
  | .hbm, ⟨68, _⟩ => ⟨S100000x64, .f32⟩
  | .hbm, ⟨69, _⟩ => ⟨S100000x64, .f32⟩
  | .hbm, ⟨70, _⟩ => ⟨S100000x64, .f32⟩
  | .hbm, ⟨71, _⟩ => ⟨S4096, .i32⟩
  | .hbm, ⟨72, _⟩ => ⟨S_, .i32⟩
  | .hbm, ⟨73, _⟩ => ⟨S4096, .i32⟩
  | .hbm, ⟨74, _⟩ => ⟨S4096, .i1⟩
  | .hbm, ⟨75, _⟩ => ⟨S_, .i32⟩
  | .hbm, ⟨76, _⟩ => ⟨S4096, .i32⟩
  | .hbm, ⟨77, _⟩ => ⟨S4096, .i32⟩
  | .hbm, ⟨78, _⟩ => ⟨S4096, .i32⟩
  | .hbm, ⟨79, _⟩ => ⟨S4096x1, .i32⟩
  | .hbm, ⟨80, _⟩ => ⟨S4096x64, .f32⟩
  | .hbm, ⟨81, _⟩ => ⟨S4096, .i32⟩
  | .hbm, ⟨82, _⟩ => ⟨S_, .i32⟩
  | .hbm, ⟨83, _⟩ => ⟨S4096, .i32⟩
  | .hbm, ⟨84, _⟩ => ⟨S4096, .i32⟩
  | .hbm, ⟨85, _⟩ => ⟨S_, .i32⟩
  | .hbm, ⟨86, _⟩ => ⟨S4096, .i32⟩
  | .hbm, ⟨87, _⟩ => ⟨S4096, .i1⟩
  | .hbm, ⟨88, _⟩ => ⟨S_, .i32⟩
  | .hbm, ⟨89, _⟩ => ⟨S4096, .i32⟩
  | .hbm, ⟨90, _⟩ => ⟨S4096, .i32⟩
  | .hbm, ⟨91, _⟩ => ⟨S4096, .i32⟩
  | .hbm, ⟨92, _⟩ => ⟨S4096x1, .i32⟩
  | .hbm, ⟨93, _⟩ => ⟨S4096x64, .f32⟩
  | .hbm, ⟨94, _⟩ => ⟨S4096, .i32⟩
  | .hbm, ⟨95, _⟩ => ⟨S_, .i32⟩
  | .hbm, ⟨96, _⟩ => ⟨S4096, .i32⟩
  | .hbm, ⟨97, _⟩ => ⟨S4096, .i32⟩
  | .hbm, ⟨98, _⟩ => ⟨S_, .i32⟩
  | .hbm, ⟨99, _⟩ => ⟨S4096, .i32⟩
  | .hbm, ⟨100, _⟩ => ⟨S4096, .i1⟩
  | .hbm, ⟨101, _⟩ => ⟨S_, .i32⟩
  | .hbm, ⟨102, _⟩ => ⟨S4096, .i32⟩
  | .hbm, ⟨103, _⟩ => ⟨S4096, .i32⟩
  | .hbm, ⟨104, _⟩ => ⟨S4096, .i32⟩
  | .hbm, ⟨105, _⟩ => ⟨S4096x1, .i32⟩
  | .hbm, ⟨106, _⟩ => ⟨S4096x64, .f32⟩
  | .hbm, ⟨107, _⟩ => ⟨S4096x1, .f32⟩
  | .hbm, ⟨108, _⟩ => ⟨S4096x1, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S1024x64, .f32⟩
  | .local _ .vmem, ⟨11, _⟩ => ⟨S1024x64, .f32⟩
  | .local _ .vmem, ⟨12, _⟩ => ⟨S1024x64, .f32⟩
  | .local _ .vmem, ⟨13, _⟩ => ⟨S1024x64, .f32⟩
  | .local _ .vmem, ⟨14, _⟩ => ⟨S1024x64, .f32⟩
  | .local _ .vmem, ⟨15, _⟩ => ⟨S1024x64, .f32⟩
  | .local _ .vmem, ⟨16, _⟩ => ⟨S1024x1, .f32⟩
  | .local _ .vmem, ⟨17, _⟩ => ⟨S1024x1, .f32⟩
  | .local _ .vmem, ⟨18, _⟩ => ⟨S1024x1, .f32⟩
  | .local _ .vmem, ⟨19, _⟩ => ⟨S1024x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c : Ref sig .tc := ⟨.hbm, 21, rfl⟩
abbrev main_v11 : Ref sig .tc := ⟨.hbm, 22, rfl⟩
abbrev main_v12 : Ref sig .tc := ⟨.hbm, 23, rfl⟩
abbrev main_c_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_c_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_c_8 : Ref sig .tc := ⟨.hbm, 55, rfl⟩
abbrev main_v39 : Ref sig .tc := ⟨.hbm, 56, rfl⟩
abbrev main_v40 : Ref sig .tc := ⟨.hbm, 57, rfl⟩
abbrev main_c_9 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_10 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_c_11 : Ref sig .tc := ⟨.hbm, 72, rfl⟩
abbrev main_v53 : Ref sig .tc := ⟨.hbm, 73, rfl⟩
abbrev main_v54 : Ref sig .tc := ⟨.hbm, 74, rfl⟩
abbrev main_c_12 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_c_13 : Ref sig .tc := ⟨.hbm, 82, rfl⟩
abbrev main_v61 : Ref sig .tc := ⟨.hbm, 83, rfl⟩
abbrev main_v62 : Ref sig .tc := ⟨.hbm, 84, rfl⟩
abbrev main_c_14 : Ref sig .tc := ⟨.hbm, 85, rfl⟩
abbrev main_v63 : Ref sig .tc := ⟨.hbm, 86, rfl⟩
abbrev main_v64 : Ref sig .tc := ⟨.hbm, 87, rfl⟩
abbrev main_c_15 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_c_16 : Ref sig .tc := ⟨.hbm, 95, rfl⟩
abbrev main_v71 : Ref sig .tc := ⟨.hbm, 96, rfl⟩
abbrev main_v72 : Ref sig .tc := ⟨.hbm, 97, rfl⟩
abbrev main_c_17 : Ref sig .tc := ⟨.hbm, 98, rfl⟩
abbrev main_v73 : Ref sig .tc := ⟨.hbm, 99, rfl⟩
abbrev main_v74 : Ref sig .tc := ⟨.hbm, 100, rfl⟩
abbrev main_c_18 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80_0 : Ref sig .tc := ⟨.hbm, 107, rfl⟩
abbrev main_v80_1 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1024x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1024x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S1200000 : S_.BroadcastsInDim S1200000 (![] : Fin 0 → Fin S1200000.rank)
  bcast_S_S100000 : S_.BroadcastsInDim S100000 (![] : Fin 0 → Fin S100000.rank)
  bcast_S1200000_S1200000x1_0 : S1200000.BroadcastsInDim S1200000x1 (![0] : Fin 1 → Fin S1200000x1.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  shapeCasts_S4096x1_S4096 : S4096x1.ShapeCasts S4096
  bcast_S_S4096 : S_.BroadcastsInDim S4096 (![] : Fin 0 → Fin S4096.rank)
  bcast_S4096_S4096x1_0 : S4096.BroadcastsInDim S4096x1 (![0] : Fin 1 → Fin S4096x1.rank)
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  reduces_S1024x64_S1024 : S1024x64.Reduces [1] S1024
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  scatter_S100000_S1200000x1_S1200000_n_0_0_1_wf : ScatterDims.WF S100000 S1200000x1 S1200000 [] [0] [0] 1
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  gather_S100000x64_S4096x1_S4096x64_1_0_n_n_0_1_164_wf : GatherDims.WF S100000x64 S4096x1 S4096x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S100000x64.size a
  hwx0_4 : ∀ i : grid0.Coords, EltTy.bits .f32 = 32 ∨ (Rect.block (s := S100000x64) S5000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x64.size a ≤ S4096x64.size a
  hwx1_0 : ∀ i : grid1.Coords, EltTy.bits .f32 = 32 ∨ (Rect.block (s := S4096x64) S1024x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x64.size a ≤ S4096x64.size a
  hwx1_1 : ∀ i : grid1.Coords, EltTy.bits .f32 = 32 ∨ (Rect.block (s := S4096x64) S1024x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x64.size a ≤ S4096x64.size a
  hwx1_2 : ∀ i : grid1.Coords, EltTy.bits .f32 = 32 ∨ (Rect.block (s := S4096x64) S1024x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1.size a ≤ S4096x1.size a
  hwx1_3 : ∀ i : grid1.Coords, EltTy.bits .f32 = 32 ∨ (Rect.block (s := S4096x1) S1024x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1.size a ≤ S4096x1.size a
  hwx1_4 : ∀ i : grid1.Coords, EltTy.bits .f32 = 32 ∨ (Rect.block (s := S4096x1) S1024x1.size (cc1_transform_4 i) (hinb1_4 i)).WholeWords (EltTy.packing .f32)

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def gather_S100000x64_S4096x1_S4096x64_1_0_n_n_0_1_164 : GatherDims S100000x64 S4096x1 S4096x64 where
  offsetDims := [1]
  collapsedSliceDims := [0]
  operandBatchingDims := []
  startIndicesBatchingDims := []
  startIndexMap := [0]
  indexVectorDim := 1
  sliceSizes := ![1, 64]
  wf := gather_S100000x64_S4096x1_S4096x64_1_0_n_n_0_1_164_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v36) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v50) S5000x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v51) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v59) S1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v69) S1024x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v79) S1024x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v80_0) S1024x1.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v80_1) S1024x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x64 : Shape := ⟨2, ![100000, 64]⟩
abbrev S1200000 : Shape := ⟨1, ![1200000]⟩
abbrev S4096x1 : Shape := ⟨2, ![4096, 1]⟩
abbrev S_ : Shape := ⟨0, ![]⟩
abbrev S100000 : Shape := ⟨1, ![100000]⟩
abbrev S1200000x1 : Shape := ⟨2, ![1200000, 1]⟩
abbrev S100000x1 : Shape := ⟨2, ![100000, 1]⟩
abbrev S1200000x64 : Shape := ⟨2, ![1200000, 64]⟩
abbrev S100000x64x1 : Shape := ⟨3, ![100000, 64, 1]⟩
abbrev S100000x64x4 : Shape := ⟨3, ![100000, 64, 4]⟩
abbrev S4096x1x1 : Shape := ⟨3, ![4096, 1, 1]⟩
abbrev S4096x1x64 : Shape := ⟨3, ![4096, 1, 64]⟩

abbrev nBuf : Space → Nat
  | .hbm => 119
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1200000, .i32⟩
  | .hbm, ⟨2, _⟩ => ⟨S1200000, .i32⟩
  | .hbm, ⟨3, _⟩ => ⟨S4096x1, .i32⟩
  | .hbm, ⟨4, _⟩ => ⟨S4096x1, .i32⟩
  | .hbm, ⟨5, _⟩ => ⟨S4096x1, .i32⟩
  | .hbm, ⟨6, _⟩ => ⟨S_, .f32⟩
  | .hbm, ⟨7, _⟩ => ⟨S1200000, .f32⟩
  | .hbm, ⟨8, _⟩ => ⟨S_, .f32⟩
  | .hbm, ⟨9, _⟩ => ⟨S100000, .f32⟩
  | .hbm, ⟨10, _⟩ => ⟨S1200000x1, .i32⟩
  | .hbm, ⟨11, _⟩ => ⟨S100000, .f32⟩
  | .hbm, ⟨12, _⟩ => ⟨S_, .f32⟩
  | .hbm, ⟨13, _⟩ => ⟨S100000, .f32⟩
  | .hbm, ⟨14, _⟩ => ⟨S100000, .f32⟩
  | .hbm, ⟨15, _⟩ => ⟨S100000x1, .f32⟩
  | .hbm, ⟨16, _⟩ => ⟨S_, .f32⟩
  | .hbm, ⟨17, _⟩ => ⟨S100000x1, .f32⟩
  | .hbm, ⟨18, _⟩ => ⟨S100000x1, .f32⟩
  | .hbm, ⟨19, _⟩ => ⟨S100000x64, .f32⟩
  | .hbm, ⟨20, _⟩ => ⟨S100000x64, .f32⟩
  | .hbm, ⟨21, _⟩ => ⟨S_, .i32⟩
  | .hbm, ⟨22, _⟩ => ⟨S1200000, .i32⟩
  | .hbm, ⟨23, _⟩ => ⟨S1200000, .i1⟩
  | .hbm, ⟨24, _⟩ => ⟨S_, .i32⟩
  | .hbm, ⟨25, _⟩ => ⟨S1200000, .i32⟩
  | .hbm, ⟨26, _⟩ => ⟨S1200000, .i32⟩
  | .hbm, ⟨27, _⟩ => ⟨S1200000, .i32⟩
  | .hbm, ⟨28, _⟩ => ⟨S1200000x1, .i32⟩
  | .hbm, ⟨29, _⟩ => ⟨S1200000x64, .f32⟩
  | .hbm, ⟨30, _⟩ => ⟨S_, .f32⟩
  | .hbm, ⟨31, _⟩ => ⟨S100000x64, .f32⟩
  | .hbm, ⟨32, _⟩ => ⟨S1200000x1, .i32⟩
  | .hbm, ⟨33, _⟩ => ⟨S100000x64, .f32⟩
  | .hbm, ⟨34, _⟩ => ⟨S100000x64, .f32⟩
  | .hbm, ⟨35, _⟩ => ⟨S100000x64, .f32⟩
  | .hbm, ⟨36, _⟩ => ⟨S100000x64, .f32⟩
  | .hbm, ⟨37, _⟩ => ⟨S100000x64, .f32⟩
  | .hbm, ⟨38, _⟩ => ⟨S_, .i32⟩
  | .hbm, ⟨39, _⟩ => ⟨S1200000, .i32⟩
  | .hbm, ⟨40, _⟩ => ⟨S1200000, .i1⟩
  | .hbm, ⟨41, _⟩ => ⟨S_, .i32⟩
  | .hbm, ⟨42, _⟩ => ⟨S1200000, .i32⟩
  | .hbm, ⟨43, _⟩ => ⟨S1200000, .i32⟩
  | .hbm, ⟨44, _⟩ => ⟨S1200000, .i32⟩
  | .hbm, ⟨45, _⟩ => ⟨S1200000x1, .i32⟩
  | .hbm, ⟨46, _⟩ => ⟨S1200000x64, .f32⟩
  | .hbm, ⟨47, _⟩ => ⟨S_, .f32⟩
  | .hbm, ⟨48, _⟩ => ⟨S100000x64, .f32⟩
  | .hbm, ⟨49, _⟩ => ⟨S1200000x1, .i32⟩
  | .hbm, ⟨50, _⟩ => ⟨S100000x64, .f32⟩
  | .hbm, ⟨51, _⟩ => ⟨S100000x64, .f32⟩
  | .hbm, ⟨52, _⟩ => ⟨S100000x64, .f32⟩
  | .hbm, ⟨53, _⟩ => ⟨S100000x64, .f32⟩
  | .hbm, ⟨54, _⟩ => ⟨S100000x64, .f32⟩
  | .hbm, ⟨55, _⟩ => ⟨S_, .i32⟩
  | .hbm, ⟨56, _⟩ => ⟨S1200000, .i32⟩
  | .hbm, ⟨57, _⟩ => ⟨S1200000, .i1⟩
  | .hbm, ⟨58, _⟩ => ⟨S_, .i32⟩
  | .hbm, ⟨59, _⟩ => ⟨S1200000, .i32⟩
  | .hbm, ⟨60, _⟩ => ⟨S1200000, .i32⟩
  | .hbm, ⟨61, _⟩ => ⟨S1200000, .i32⟩
  | .hbm, ⟨62, _⟩ => ⟨S1200000x1, .i32⟩
  | .hbm, ⟨63, _⟩ => ⟨S1200000x64, .f32⟩
  | .hbm, ⟨64, _⟩ => ⟨S_, .f32⟩
  | .hbm, ⟨65, _⟩ => ⟨S100000x64, .f32⟩
  | .hbm, ⟨66, _⟩ => ⟨S1200000x1, .i32⟩
  | .hbm, ⟨67, _⟩ => ⟨S100000x64, .f32⟩
  | .hbm, ⟨68, _⟩ => ⟨S100000x64, .f32⟩
  | .hbm, ⟨69, _⟩ => ⟨S100000x64, .f32⟩
  | .hbm, ⟨70, _⟩ => ⟨S100000x64x1, .f32⟩
  | .hbm, ⟨71, _⟩ => ⟨S100000x64x1, .f32⟩
  | .hbm, ⟨72, _⟩ => ⟨S100000x64x1, .f32⟩
  | .hbm, ⟨73, _⟩ => ⟨S100000x64x1, .f32⟩
  | .hbm, ⟨74, _⟩ => ⟨S100000x64x4, .f32⟩
  | .hbm, ⟨75, _⟩ => ⟨S_, .f32⟩
  | .hbm, ⟨76, _⟩ => ⟨S100000x64, .f32⟩
  | .hbm, ⟨77, _⟩ => ⟨S_, .f32⟩
  | .hbm, ⟨78, _⟩ => ⟨S100000x64, .f32⟩
  | .hbm, ⟨79, _⟩ => ⟨S100000x64, .f32⟩
  | .hbm, ⟨80, _⟩ => ⟨S_, .i32⟩
  | .hbm, ⟨81, _⟩ => ⟨S4096x1, .i32⟩
  | .hbm, ⟨82, _⟩ => ⟨S4096x1, .i1⟩
  | .hbm, ⟨83, _⟩ => ⟨S_, .i32⟩
  | .hbm, ⟨84, _⟩ => ⟨S4096x1, .i32⟩
  | .hbm, ⟨85, _⟩ => ⟨S4096x1, .i32⟩
  | .hbm, ⟨86, _⟩ => ⟨S4096x1, .i32⟩
  | .hbm, ⟨87, _⟩ => ⟨S4096x1x1, .i32⟩
  | .hbm, ⟨88, _⟩ => ⟨S4096x1x64, .f32⟩
  | .hbm, ⟨89, _⟩ => ⟨S_, .i32⟩
  | .hbm, ⟨90, _⟩ => ⟨S4096x1, .i32⟩
  | .hbm, ⟨91, _⟩ => ⟨S4096x1, .i32⟩
  | .hbm, ⟨92, _⟩ => ⟨S_, .i32⟩
  | .hbm, ⟨93, _⟩ => ⟨S4096x1, .i32⟩
  | .hbm, ⟨94, _⟩ => ⟨S4096x1, .i1⟩
  | .hbm, ⟨95, _⟩ => ⟨S_, .i32⟩
  | .hbm, ⟨96, _⟩ => ⟨S4096x1, .i32⟩
  | .hbm, ⟨97, _⟩ => ⟨S4096x1, .i32⟩
  | .hbm, ⟨98, _⟩ => ⟨S4096x1, .i32⟩
  | .hbm, ⟨99, _⟩ => ⟨S4096x1x1, .i32⟩
  | .hbm, ⟨100, _⟩ => ⟨S4096x1x64, .f32⟩
  | .hbm, ⟨101, _⟩ => ⟨S_, .i32⟩
  | .hbm, ⟨102, _⟩ => ⟨S4096x1, .i32⟩
  | .hbm, ⟨103, _⟩ => ⟨S4096x1, .i32⟩
  | .hbm, ⟨104, _⟩ => ⟨S_, .i32⟩
  | .hbm, ⟨105, _⟩ => ⟨S4096x1, .i32⟩
  | .hbm, ⟨106, _⟩ => ⟨S4096x1, .i1⟩
  | .hbm, ⟨107, _⟩ => ⟨S_, .i32⟩
  | .hbm, ⟨108, _⟩ => ⟨S4096x1, .i32⟩
  | .hbm, ⟨109, _⟩ => ⟨S4096x1, .i32⟩
  | .hbm, ⟨110, _⟩ => ⟨S4096x1, .i32⟩
  | .hbm, ⟨111, _⟩ => ⟨S4096x1x1, .i32⟩
  | .hbm, ⟨112, _⟩ => ⟨S4096x1x64, .f32⟩
  | .hbm, ⟨113, _⟩ => ⟨S4096x1x64, .f32⟩
  | .hbm, ⟨114, _⟩ => ⟨S_, .f32⟩
  | .hbm, ⟨115, _⟩ => ⟨S4096x1, .f32⟩
  | .hbm, ⟨116, _⟩ => ⟨S4096x1x64, .f32⟩
  | .hbm, ⟨117, _⟩ => ⟨S_, .f32⟩
  | .hbm, ⟨118, _⟩ => ⟨S4096x1, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c : Ref sig .tc := ⟨.hbm, 21, rfl⟩
abbrev main_v11 : Ref sig .tc := ⟨.hbm, 22, rfl⟩
abbrev main_v12 : Ref sig .tc := ⟨.hbm, 23, rfl⟩
abbrev main_c_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_c_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_c_8 : Ref sig .tc := ⟨.hbm, 55, rfl⟩
abbrev main_v39 : Ref sig .tc := ⟨.hbm, 56, rfl⟩
abbrev main_v40 : Ref sig .tc := ⟨.hbm, 57, rfl⟩
abbrev main_c_9 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_10 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_11 : Ref sig .tc := ⟨.hbm, 75, rfl⟩
abbrev main_v56 : Ref sig .tc := ⟨.hbm, 76, rfl⟩
abbrev main_cst_12 : Ref sig .tc := ⟨.hbm, 77, rfl⟩
abbrev main_v57 : Ref sig .tc := ⟨.hbm, 78, rfl⟩
abbrev main_v58 : Ref sig .tc := ⟨.hbm, 79, rfl⟩
abbrev main_c_13 : Ref sig .tc := ⟨.hbm, 80, rfl⟩
abbrev main_v59 : Ref sig .tc := ⟨.hbm, 81, rfl⟩
abbrev main_v60 : Ref sig .tc := ⟨.hbm, 82, rfl⟩
abbrev main_c_14 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_c_15 : Ref sig .tc := ⟨.hbm, 89, rfl⟩
abbrev main_v66 : Ref sig .tc := ⟨.hbm, 90, rfl⟩
abbrev main_v67 : Ref sig .tc := ⟨.hbm, 91, rfl⟩
abbrev main_c_16 : Ref sig .tc := ⟨.hbm, 92, rfl⟩
abbrev main_v68 : Ref sig .tc := ⟨.hbm, 93, rfl⟩
abbrev main_v69 : Ref sig .tc := ⟨.hbm, 94, rfl⟩
abbrev main_c_17 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_c_18 : Ref sig .tc := ⟨.hbm, 101, rfl⟩
abbrev main_v75 : Ref sig .tc := ⟨.hbm, 102, rfl⟩
abbrev main_v76 : Ref sig .tc := ⟨.hbm, 103, rfl⟩
abbrev main_c_19 : Ref sig .tc := ⟨.hbm, 104, rfl⟩
abbrev main_v77 : Ref sig .tc := ⟨.hbm, 105, rfl⟩
abbrev main_v78 : Ref sig .tc := ⟨.hbm, 106, rfl⟩
abbrev main_c_20 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_cst_21 : Ref sig .tc := ⟨.hbm, 114, rfl⟩
abbrev main_v85 : Ref sig .tc := ⟨.hbm, 115, rfl⟩
abbrev main_v86 : Ref sig .tc := ⟨.hbm, 116, rfl⟩
abbrev main_cst_22 : Ref sig .tc := ⟨.hbm, 117, rfl⟩
abbrev main_v87 : Ref sig .tc := ⟨.hbm, 118, rfl⟩

abbrev nD : Nat := 1
abbrev τ : Topo := Topo.v7x

variable {F : FTy → Type} [FloatOps F]

class Facts₀ : Prop where
  bcast_S_S1200000 : S_.BroadcastsInDim S1200000 (![] : Fin 0 → Fin S1200000.rank)
  bcast_S_S100000 : S_.BroadcastsInDim S100000 (![] : Fin 0 → Fin S100000.rank)
  bcast_S1200000_S1200000x1_0 : S1200000.BroadcastsInDim S1200000x1 (![0] : Fin 1 → Fin S1200000x1.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  bcast_S100000x64_S100000x64x1_0_1 : S100000x64.BroadcastsInDim S100000x64x1 (![0, 1] : Fin 2 → Fin S100000x64x1.rank)
  concatenates_S100000x64x1_S100000x64x1_S100000x64x1_S100000x64x1_S100000x64x4_d2 : Shape.Concatenates [S100000x64x1, S100000x64x1, S100000x64x1, S100000x64x1] S100000x64x4 2
  reducesTo_S100000x64x4_S100000x64_d2 : S100000x64x4.ReducesTo [2] S100000x64
  h_S_ : 0 < S_.numel
  bcast_S_S4096x1 : S_.BroadcastsInDim S4096x1 (![] : Fin 0 → Fin S4096x1.rank)
  bcast_S4096x1_S4096x1x1_0_1 : S4096x1.BroadcastsInDim S4096x1x1 (![0, 1] : Fin 2 → Fin S4096x1x1.rank)
  reducesTo_S4096x1x64_S4096x1_d2 : S4096x1x64.ReducesTo [2] S4096x1
  scatter_S100000_S1200000x1_S1200000_n_0_0_1_wf : ScatterDims.WF S100000 S1200000x1 S1200000 [] [0] [0] 1
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  gather_S100000x64_S4096x1x1_S4096x1x64_2_0_n_n_0_2_164_wf : GatherDims.WF S100000x64 S4096x1x1 S4096x1x64 [2] [0] [] [0] [] 2 ![1, 64]

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def gather_S100000x64_S4096x1x1_S4096x1x64_2_0_n_n_0_2_164 : GatherDims S100000x64 S4096x1x1 S4096x1x64 where
  offsetDims := [2]
  collapsedSliceDims := [0]
  operandBatchingDims := []
  startIndicesBatchingDims := []
  startIndexMap := [0]
  indexVectorDim := 2
  sliceSizes := ![1, 64]
  wf := gather_S100000x64_S4096x1x1_S4096x1x64_2_0_n_n_0_2_164_wf

class Facts : Prop extends Facts₀ where

variable [Facts]
-- ==== Proof.KernelRun.lean ====
/-
  The idealized kernel's whole run with its two results named. The program is four stretches in order: the host
  operations of the graph propagation, the pooling kernel over twenty blocks of rows, the host operations that pick
  the rows of the pooled table, and the scoring kernel over four blocks of rows. Every weakly fair execution ends with
  each result array holding what the last stretch's write-backs leave there, and with the six arguments as launched.
  What those contents are, as functions of the arguments, is read stretch by stretch in the sibling modules.
-/
import proofs.«173116_j21852793602105_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the two result arrays end at the contents
    the last stretch leaves them, and the argument arrays end as launched. -/
theorem run_results : θ_run defs (onTc (τ := τ) (main (F := F))) ⟨m, fun _ => 0, ρ⟩ (fun r => ∀ c : Dev nD,
      r.2.mem ((c.tc : Thread nD τ).loc main_v80_0) = W4 m ρ c (Proc.devRef .tc main_v80_0)
      ∧ r.2.mem ((c.tc : Thread nD τ).loc main_v80_1) = W4 m ρ c (Proc.devRef .tc main_v80_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v80_0 (by decide)),
       h c _ (mem_uc main_v80_1 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.KernelIdeal.RunValue

end
-- ==== Proof.LibLayerMean.lean ====
/-
  The mean of four arrays of one shape, entry by entry, on the extended reals, in two spellings. One adds the
  four entries in order and multiplies the sum by the single-precision word for one quarter. The other stacks the
  four arrays along a new last axis of extent 4, sums along that axis from the zero word, and divides by the word
  for four. A quotient by the real 4 is the product with the real 1/4 on every extended real, the infinities
  included, and the sum over the four positions of the stack is the four entries added in order, so the two
  spellings agree everywhere with no finiteness assumed. Nothing here mentions a program.
-/
import Idealize.ShloMosaic.PureOps.Ideal
import Idealize.ShloMosaic.PureOps.Ideal.Laws
import Idealize.ShloMosaic.Lib.ValueIdx
import Idealize.ShloMosaic.Lib.Pipeline.Value

open scoped BigOperators

namespace Cert.Lib.LayerMean

open Idealize.ShloMosaic Idealize.ShloMosaic.ValueIdx

/-! ## The two constants -/

/-- The single-precision word 3E800000 is the real 1/4. -/
theorem ofBits_quarter : Ideal.ofBits .f32 0x3E800000#32 = ((1 / 4 : ℝ) : EReal) := by
  simp [Ideal.ofBits, Ideal.ieee, -EReal.coe_mul]; norm_num

/-- The single-precision word 40800000 is the real 4. -/
theorem ofBits_four : Ideal.ofBits .f32 0x40800000#32 = ((4 : ℝ) : EReal) := by
  simp [Ideal.ofBits, Ideal.ieee, -EReal.coe_mul]; norm_num

/-! ## The mean -/

/-- The mean of four arrays as the running sum of their entries times one quarter. -/
noncomputable def layerMean {s : Shape} (e a b c : s.Idx → EReal) : s.Idx → EReal :=
  fun j => (e j + a j + b j + c j) * Ideal.ofBits .f32 0x3E800000#32

theorem layerMean_apply {s : Shape} (e a b c : s.Idx → EReal) (j : s.Idx) :
    layerMean e a b c j = (e j + a j + b j + c j) * Ideal.ofBits .f32 0x3E800000#32 := rfl

/-- Zero plus the sum of four extended reals, divided by four, is their running sum times one quarter. -/
theorem mean4 (f : Fin 4 → EReal) :
    Ideal.div (Ideal.ofBits .f32 0x00000000#32 + ∑ k : Fin 4, f k) (Ideal.ofBits .f32 0x40800000#32)
      = (f 0 + f 1 + f 2 + f 3) * Ideal.ofBits .f32 0x3E800000#32 := by
  rw [Ideal.ofBits_zero_f32, zero_add, Fin.sum_univ_four, ofBits_four, ofBits_quarter,
    Ideal.div_coe (by norm_num : (4 : ℝ) ≠ 0)]

/-! ## Four arrays stacked along a new last axis -/

section Stack
variable {α : Type} {n d : Nat}

/-- Four n×d×1 arrays joined along the last axis into n×d×4: position k of the stack at (p, q) is the k-th array
    at (p, q, 0). -/
theorem stack4_apply (u0 u1 u2 u3 : (⟨3, ![n, d, 1]⟩ : Shape).Idx → α)
    (h : Shape.Concatenates (([⟨⟨3, ![n, d, 1]⟩, u0⟩, ⟨⟨3, ![n, d, 1]⟩, u1⟩, ⟨⟨3, ![n, d, 1]⟩, u2⟩, ⟨⟨3, ![n, d, 1]⟩, u3⟩] :
      List ((s : Shape) × (s.Idx → α))).map (·.1)) ⟨3, ![n, d, 4]⟩ (2 : Fin 3))
    (p : Fin n) (q : Fin d) (k : Fin 4) :
    concatenate ⟨3, ![n, d, 4]⟩ (2 : Fin 3)
        [⟨⟨3, ![n, d, 1]⟩, u0⟩, ⟨⟨3, ![n, d, 1]⟩, u1⟩, ⟨⟨3, ![n, d, 1]⟩, u2⟩, ⟨⟨3, ![n, d, 1]⟩, u3⟩] h (ix3 p q k)
      = (![u0, u1, u2, u3] k) (ix3 p q 0) := by
  have hi : ∀ (k : Fin 4) (b : Fin 3), b.cast (rfl : (3 : Nat) = 3) ≠ (2 : Fin 3) →
      ((ix3 p q (0 : Fin 1) : (⟨3, ![n, d, 1]⟩ : Shape).Idx) b).val = ((ix3 p q k : (⟨3, ![n, d, 4]⟩ : Shape).Idx) (b.cast rfl)).val := by
    intro k b hb
    match b with
    | ⟨0, _⟩ => rfl
    | ⟨1, _⟩ => rfl
    | ⟨2, _⟩ => exact absurd rfl hb
  have key := fun k' : Fin 4 => concatenate_apply_piece (2 : Fin 3)
    ([⟨⟨3, ![n, d, 1]⟩, u0⟩, ⟨⟨3, ![n, d, 1]⟩, u1⟩, ⟨⟨3, ![n, d, 1]⟩, u2⟩, ⟨⟨3, ![n, d, 1]⟩, u3⟩] :
      List ((s : Shape) × (s.Idx → α))) h (ix3 p q k')
  match k with
  | ⟨0, _⟩ => exact key 0 0 (by simp) ⟨3, ![n, d, 1]⟩ u0 rfl rfl 0 rfl (ix3 p q 0) (hi 0) rfl
  | ⟨1, _⟩ => exact key 1 1 (by simp) ⟨3, ![n, d, 1]⟩ u1 rfl rfl 1 rfl (ix3 p q 0) (hi 1) rfl
  | ⟨2, _⟩ => exact key 2 2 (by simp) ⟨3, ![n, d, 1]⟩ u2 rfl rfl 2 rfl (ix3 p q 0) (hi 2) rfl
  | ⟨3, _⟩ => exact key 3 3 (by simp) ⟨3, ![n, d, 1]⟩ u3 rfl rfl 3 rfl (ix3 p q 0) (hi 3) rfl

end Stack

end Cert.Lib.LayerMean
-- ==== Proof.PoolValue.lean ====
/-
  What the pooling kernel leaves in its output array. Grid point t works on rows 5000·t … 5000·t + 4999: it loads
  that block of rows of each of the four layer tables, adds the four blocks entry by entry in order, multiplies by one
  quarter and stores the block. All five windows move together (each index map sends point t to block (t, 0)), so
  what point t writes back is block t of ONE whole-array function of the four tables as the kernel finds them: their
  entrywise mean. The twenty blocks tile the 100000 rows, so after the last write-back the array is that mean
  everywhere.
-/
import proofs.«173116_j21852793602105_1_alg».proof.Proof.Gen.KernelIdeal.Frame
import proofs.«173116_j21852793602105_1_alg».proof.Proof.LibLayerMean
import Idealize.ShloMosaic.Lib.Pipeline.Value
import Idealize.ShloMosaic.Lib.ValueIdx

set_option maxRecDepth 16384

noncomputable section

namespace Cert.KernelIdeal.PoolValue

open Cert.KernelIdeal Cert.KernelIdeal.Gen Idealize.ShloMosaic Idealize.ShloMosaic.TcCoe Idealize.SL.Sem
open Idealize.ShloMosaic.Pipeline (Dat)
open Cert.Lib.LayerMean

variable (V : (c : Dev nD) → (b : Ref sig .tc) → Buf (Elt Ideal) ((c : Thread nD τ).loc b))

theorem offsets_zero : (![0, 0] : Fin 2 → Nat) = fun _ => 0 := funext fun a => by fin_cases a <;> rfl

/-- The body's stored value is the entrywise mean of its four loaded blocks. -/
theorem pool_payload (x0 x1 x2 x3 : Vec Ideal S5000x64 .f32) :
    k0_pay1 x0 x1 x2 x3 = layerMean (s := S5000x64) x0 x1 x2 x3 := by
  funext j
  unfold k0_pay1
  simp only [shapeCast_self]
  rfl

/-- All five windows sit on the same block at every grid point, and the block's row index stays below 20. -/
theorem windows_aligned : ∀ t : Fin cfg0.N,
    win0_0.index t (0 : Fin 2) = win0_4.index t (0 : Fin 2) ∧ win0_0.index t (1 : Fin 2) = win0_4.index t (1 : Fin 2)
    ∧ win0_1.index t (0 : Fin 2) = win0_4.index t (0 : Fin 2) ∧ win0_1.index t (1 : Fin 2) = win0_4.index t (1 : Fin 2)
    ∧ win0_2.index t (0 : Fin 2) = win0_4.index t (0 : Fin 2) ∧ win0_2.index t (1 : Fin 2) = win0_4.index t (1 : Fin 2)
    ∧ win0_3.index t (0 : Fin 2) = win0_4.index t (0 : Fin 2) ∧ win0_3.index t (1 : Fin 2) = win0_4.index t (1 : Fin 2)
    ∧ win0_4.index t (0 : Fin 2) ≤ 19 ∧ win0_4.index t (1 : Fin 2) ≤ 0 :=
  (by decide +kernel : ∀ t : Fin grid0.N, _)

/-- Every block of rows is some grid point's. -/
theorem blocks_onto : ∀ (q0 : Fin 20) (q1 : Fin 1), ∃ t : Fin cfg0.N, win0_4.index t = ![q0.val, q1.val] :=
  (by decide +kernel : ∀ (q0 : Fin 20) (q1 : Fin 1), ∃ t : Fin grid0.N, win0_4.index t = ![q0.val, q1.val])

/-- What grid point t writes back is block t of the entrywise mean of the four tables. -/
theorem pool_flushed (c : Dev nD) (t : Fin cfg0.N) :
    (dat0 V c).flushed 4 t = ((cfg0.win 4).blk t).view.read (Elt Ideal)
      (layerMean (s := S100000x64) (V c main_arg0) (V c main_v22) (V c main_v36) (V c main_v50)) := by
  show (cfg0.win 4).cut (grid0.coords t) ((dat0 V c).after 4 t) = _
  rw [after0_4]
  unfold out0_4
  rw [View.canon_unit_zero offsets_zero]
  simp only [View.ld_unit_zero (S := S5000x64) offsets_zero]
  rw [pool_payload]
  obtain ⟨e00, e01, e10, e11, e20, e21, e30, e31, -, -⟩ := windows_aligned t
  funext j
  let A0 : S100000x64.Idx → EReal := V c main_arg0
  let A1 : S100000x64.Idx → EReal := V c main_v22
  let A2 : S100000x64.Idx → EReal := V c main_v36
  let A3 : S100000x64.Idx → EReal := V c main_v50
  show (A0 (((cfg0.win 0).blk t).view.emb j) + A1 (((cfg0.win 1).blk t).view.emb j)
        + A2 (((cfg0.win 2).blk t).view.emb j) + A3 (((cfg0.win 3).blk t).view.emb j))
        * Ideal.ofBits .f32 0x3E800000#32
      = (A0 (((cfg0.win 4).blk t).view.emb j) + A1 (((cfg0.win 4).blk t).view.emb j)
        + A2 (((cfg0.win 4).blk t).view.emb j) + A3 (((cfg0.win 4).blk t).view.emb j))
        * Ideal.ofBits .f32 0x3E800000#32
  have h0 : ((cfg0.win 0).blk t).view.emb j = ((cfg0.win 4).blk t).view.emb j := by
    funext a; apply Fin.ext
    match a with
    | ⟨0, _⟩ => show win0_0.index t (0 : Fin 2) * 5000 + 1 * (j 0).val = win0_4.index t (0 : Fin 2) * 5000 + 1 * (j 0).val; omega
    | ⟨1, _⟩ => show win0_0.index t (1 : Fin 2) * 64 + 1 * (j 1).val = win0_4.index t (1 : Fin 2) * 64 + 1 * (j 1).val; omega
  have h1 : ((cfg0.win 1).blk t).view.emb j = ((cfg0.win 4).blk t).view.emb j := by
    funext a; apply Fin.ext
    match a with
    | ⟨0, _⟩ => show win0_1.index t (0 : Fin 2) * 5000 + 1 * (j 0).val = win0_4.index t (0 : Fin 2) * 5000 + 1 * (j 0).val; omega
    | ⟨1, _⟩ => show win0_1.index t (1 : Fin 2) * 64 + 1 * (j 1).val = win0_4.index t (1 : Fin 2) * 64 + 1 * (j 1).val; omega
  have h2 : ((cfg0.win 2).blk t).view.emb j = ((cfg0.win 4).blk t).view.emb j := by
    funext a; apply Fin.ext
    match a with
    | ⟨0, _⟩ => show win0_2.index t (0 : Fin 2) * 5000 + 1 * (j 0).val = win0_4.index t (0 : Fin 2) * 5000 + 1 * (j 0).val; omega
    | ⟨1, _⟩ => show win0_2.index t (1 : Fin 2) * 64 + 1 * (j 1).val = win0_4.index t (1 : Fin 2) * 64 + 1 * (j 1).val; omega
  have h3 : ((cfg0.win 3).blk t).view.emb j = ((cfg0.win 4).blk t).view.emb j := by
    funext a; apply Fin.ext
    match a with
    | ⟨0, _⟩ => show win0_3.index t (0 : Fin 2) * 5000 + 1 * (j 0).val = win0_4.index t (0 : Fin 2) * 5000 + 1 * (j 0).val; omega
    | ⟨1, _⟩ => show win0_3.index t (1 : Fin 2) * 64 + 1 * (j 1).val = win0_4.index t (1 : Fin 2) * 64 + 1 * (j 1).val; omega
  rw [h0, h1, h2, h3]

/-- An index of the array is in point t's block iff each coordinate is in the block's range on its axis. -/
theorem pool_mem_blk (t : Fin cfg0.N) (i : S100000x64.Idx) :
    i ∈ ((cfg0.win 4).blk t).view.set ↔ ∀ a : Fin 2, win0_4.index t a * S5000x64.size a ≤ (i a).val
      ∧ (i a).val < win0_4.index t a * S5000x64.size a + S5000x64.size a := by
  show i ∈ ((View.whole main_v51).slice (win0_4.rect t)).set ↔ _
  rw [View.set_slice_whole, Rect.mem_set_unit]
  exact Iff.rfl

/-- Every index of the array lies in the block of the point that owns its rows. -/
theorem pool_cover (i : S100000x64.Idx) :
    ∃ t : Fin cfg0.N, (cfg0.win 4).flush t = true ∧ i ∈ ((cfg0.win 4).blk t).view.set := by
  have hi0 : (i 0).val < 100000 := (i 0).isLt
  have hi1 : (i 1).val < 64 := (i 1).isLt
  obtain ⟨t, ht⟩ := blocks_onto ⟨(i 0).val / 5000, by omega⟩ ⟨(i 1).val / 64, by omega⟩
  have q0 : win0_4.index t (0 : Fin 2) = (i 0).val / 5000 := congrFun ht 0
  have q1 : win0_4.index t (1 : Fin 2) = (i 1).val / 64 := congrFun ht 1
  refine ⟨t, flush0_4 t, ?_⟩
  rw [pool_mem_blk]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 64 ≤ (i 1).val ∧ (i 1).val < win0_4.index t (1 : Fin 2) * 64 + 64; omega

/-- After the last write-back the pooled table is the entrywise mean of the four tables as the kernel found them. -/
theorem pool_final (c : Dev nD) :
    (dat0 V c).arrAt 4 cfg0.N
      = layerMean (s := S100000x64) (V c main_arg0) (V c main_v22) (V c main_v36) (V c main_v50) :=
  (dat0 V c).arrAt_eq_of_cover 4 _ (fun t _ => pool_flushed V c t) pool_cover

end Cert.KernelIdeal.PoolValue

end
-- ==== Proof.LibRowReductions.lean ====
/-
  A row-wise reduction of an a×b block read at an index, on the extended reals: the maximum along each row as the
  fold of max over the row's entries (a vector reduction and the reference's one-operand reduce alike), the sum along
  each row as the sum over the row's entries, and the re-shapings and broadcasts that put a column of per-row values
  or a row of per-column values beside the block. Nothing here mentions a program.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value
import Idealize.ShloMosaic.Lib.ValueLayout

open scoped BigOperators

namespace Cert.Lib.RowReductions

open Idealize.ShloMosaic Idealize.ShloMosaic.ValueIdx

/-! ## Reductions along each row -/

section Rows
variable {a b : Nat} {φ : FTy}

/-- The row index p with column k put back is (p, k). -/
theorem lift_row (h : (⟨2, ![a, b]⟩ : Shape).Reduces [1] ⟨1, ![a]⟩) (p : Fin a)
    (k : Fin ((⟨2, ![a, b]⟩ : Shape).size 1)) : h.lift (ix1 p) k = ix2 p (⟨k.val, k.isLt⟩ : Fin b) := by
  funext ax; apply Fin.ext
  match ax with
  | ⟨0, _⟩ => rfl
  | ⟨1, _⟩ => rfl

/-- The maximum along each row of an a×b block is at p the fold of max, from the accumulator's value, over the
    entries (p, k) of row p. -/
theorem rowmax_apply (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ src acc h hφ hacc (ix1 p)
      = (Finset.univ : Finset (Fin b)).fold max (FloatOps.ofBits (F := Ideal) φ acc) (fun k => src (ix2 p k)) := by
  rw [Ideal.multiReduction_maximumf_single]
  have hf : (src ∘ h.lift (ix1 p)) = fun k : Fin b => src (ix2 p k) :=
    funext fun k => congrArg src (lift_row h p k)
  exact congrArg (fun f => Finset.fold max (FloatOps.ofBits (F := Ideal) φ acc) f (Finset.univ : Finset (Fin b))) hf

/-- The sum along each row of an a×b block is at p the sum over k of the block at (p, k). -/
theorem rowsum_apply (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  rw [Ideal.multiReduction_add_single]
  exact Finset.sum_congr rfl fun k _ => congrArg src (lift_row h p k)

/-- The reference's one-operand reduce with a maximum body along each row of an a×b block is at p the fold of max,
    from the initial value's element, over the entries (p, k) of row p. -/
theorem host_rowmax_apply {u : Shape} (x : (⟨2, ![a, b]⟩ : Shape).Idx → Ideal .f32) (init : u.Idx → Ideal .f32)
    (h' : (⟨2, ![a, b]⟩ : Shape).ReducesTo [1] ⟨1, ![a]⟩) (hu : 0 < u.numel) (p : Fin a) :
    Host.reduce (FloatOps.maximumf (F := Ideal) (φ := .f32)) x init h' hu (ix1 p)
      = (Finset.univ : Finset (Fin b)).fold max (init (Shape.Idx.first hu)) (fun k => x (ix2 p k)) := by
  have h : (⟨2, ![a, b]⟩ : Shape).Reduces [1] ⟨1, ![a]⟩ := ⟨h'.1, Nat.one_pos, h'.2⟩
  rw [Host.reduce_eq_fold_single FloatOps.maximumf x init h' h hu]
  have hf : (x ∘ h.lift (ix1 p)) = fun k : Fin b => x (ix2 p k) :=
    funext fun k => congrArg x (lift_row h p k)
  exact congrArg (fun f => Finset.fold max (init (Shape.Idx.first hu)) f (Finset.univ : Finset (Fin b))) hf

end Rows

/-! ## Re-shapings and broadcasts of per-row and per-column values -/

section Layout
variable {α : Type} {a b : Nat}

/-- A vector of a entries viewed as an a×1 column reads its entry p at (p, 0). -/
theorem shapeCast_col_apply (x : (⟨1, ![a]⟩ : Shape).Idx → α) (h : (⟨1, ![a]⟩ : Shape).ShapeCasts ⟨2, ![a, 1]⟩)
    (p : Fin a) : shapeCast ⟨2, ![a, 1]⟩ x h (ix2 p 0) = x (ix1 p) := by
  refine shapeCast_apply x h _ _ ?_
  rw [Shape.rowMajor_val_one, Shape.rowMajor_val_two]
  show p.val = p.val * 1 + 0
  omega

/-- An a×1 column broadcast across b columns reads its entry p at every (p, q). -/
theorem broadcast_col_apply (x : (⟨2, ![a, 1]⟩ : Shape).Idx → α) (h : (⟨2, ![a, 1]⟩ : Shape).Broadcasts ⟨2, ![a, b]⟩)
    (p : Fin a) (q : Fin b) : broadcastTo ⟨2, ![a, b]⟩ x h (ix2 p q) = x (ix2 p 0) :=
  broadcastTo_apply x h _ _ fun ax => by
    match ax with
    | ⟨0, _⟩ =>
      show p.val = if a = 1 then 0 else p.val
      split_ifs with ha
      · have := p.isLt; omega
      · rfl
    | ⟨1, _⟩ => rfl

/-- A vector of b entries viewed as a 1×b row reads its entry q at (0, q). -/
theorem shapeCast_rowvec_apply (x : (⟨1, ![b]⟩ : Shape).Idx → α) (h : (⟨1, ![b]⟩ : Shape).ShapeCasts ⟨2, ![1, b]⟩)
    (q : Fin b) : shapeCast ⟨2, ![1, b]⟩ x h (ix2 0 q) = x (ix1 q) := by
  refine shapeCast_apply x h _ _ ?_
  rw [Shape.rowMajor_val_one, Shape.rowMajor_val_two]
  show q.val = (0 : Nat) * b + q.val
  omega

end Layout

/-! ## The accumulator of a maximum -/

/-- The maximum of −∞ and x is x. -/
theorem fold_max_bot (x : EReal) : max (⊥ : EReal) x = x := max_eq_right bot_le

/-- The single-precision bit pattern FF800000 is −∞. -/
theorem ofBits_neg_inf_f32 : Ideal.ofBits .f32 0xFF800000#32 = (⊥ : EReal) := by
  simp [Ideal.ofBits, Ideal.ieee]

/-! ## The reference's broadcasts of per-row values and of a scalar -/

section HostBroadcasts
variable {α : Type} {n c : Nat}

/-- A vector of n entries broadcast into an n×1 column along the rows reads its entry p at (p, 0). -/
theorem bcastInDim_col_apply (x : (⟨1, ![n]⟩ : Shape).Idx → α)
    (h : (⟨1, ![n]⟩ : Shape).BroadcastsInDim ⟨2, ![n, 1]⟩ ![0]) (p : Fin n) :
    broadcastInDim ⟨2, ![n, 1]⟩ ![0] h x (ix2 p 0) = x (ix1 p) :=
  broadcastInDim_apply _ h x _ _ fun ax => by
    match ax with
    | ⟨0, _⟩ =>
      show p.val = if n = 1 then 0 else p.val
      split_ifs with hn
      · have := p.isLt; omega
      · rfl

/-- An n×1 column broadcast into an n×c block, axis for axis, reads its entry p at every (p, q). -/
theorem bcastInDim_cols_apply (x : (⟨2, ![n, 1]⟩ : Shape).Idx → α)
    (h : (⟨2, ![n, 1]⟩ : Shape).BroadcastsInDim ⟨2, ![n, c]⟩ ![0, 1]) (p : Fin n) (q : Fin c) :
    broadcastInDim ⟨2, ![n, c]⟩ ![0, 1] h x (ix2 p q) = x (ix2 p 0) :=
  broadcastInDim_apply _ h x _ _ fun ax => by
    match ax with
    | ⟨0, _⟩ =>
      show p.val = if n = 1 then 0 else p.val
      split_ifs with hn
      · have := p.isLt; omega
      · rfl
    | ⟨1, _⟩ => rfl

/-- A scalar broadcast into an n×c block reads the scalar at every index. -/
theorem bcastInDim_scalar_apply (x : (⟨0, ![]⟩ : Shape).Idx → α)
    (h : (⟨0, ![]⟩ : Shape).BroadcastsInDim ⟨2, ![n, c]⟩ ![]) (i : (⟨2, ![n, c]⟩ : Shape).Idx) :
    broadcastInDim ⟨2, ![n, c]⟩ ![] h x i = x ix0 :=
  broadcastInDim_apply _ h x _ _ fun ax => ax.elim0

end HostBroadcasts

end Cert.Lib.RowReductions
-- ==== Proof.LibRowDots.lean ====
/-
  The dot product of matching rows of two a×b arrays, as an a×1 column, on the extended reals: entry (r, 0) is the
  sum over k of u(r, k) · p(r, k). A kernel body spells it as the entrywise product of the two loaded blocks (each
  re-shaped in place), summed along the lanes from the zero word, the per-row sums then re-shaped from a vector of a
  entries to an a×1 column. At the ideal values the lane sum is the plain sum over the row, so that spelling is this
  function. Nothing here mentions a program.
-/
import Idealize.ShloMosaic.PureOps.Ideal
import Idealize.ShloMosaic.PureOps.Ideal.Laws
import Idealize.ShloMosaic.Lib.ValueIdx
import Idealize.ShloMosaic.Lib.Pipeline.Value
import proofs.«173116_j21852793602105_1_alg».proof.Proof.LibRowReductions

open scoped BigOperators

namespace Cert.Lib.RowDots

open Idealize.ShloMosaic Idealize.ShloMosaic.ValueIdx Cert.Lib.RowReductions

variable {a b : Nat}

/-- The a×1 column of the dot products of matching rows of u and p. -/
noncomputable def rowDots (u p : (⟨2, ![a, b]⟩ : Shape).Idx → EReal) : (⟨2, ![a, 1]⟩ : Shape).Idx → EReal :=
  fun j => ∑ k : Fin b, u (ix2 (⟨(j 0).val, idx2_lt0 j⟩ : Fin a) k) * p (ix2 (⟨(j 0).val, idx2_lt0 j⟩ : Fin a) k)

/-- Its entry (r, 0) is the sum over k of u(r, k) · p(r, k). -/
theorem rowDots_apply (u p : (⟨2, ![a, b]⟩ : Shape).Idx → EReal) (r : Fin a) :
    rowDots u p (ix2 r 0) = ∑ k : Fin b, u (ix2 r k) * p (ix2 r k) := rfl

/-- Every index of an a×1 column is (r, 0) for its row r. -/
theorem eq_col (j : (⟨2, ![a, 1]⟩ : Shape).Idx) : j = ix2 (⟨(j 0).val, idx2_lt0 j⟩ : Fin a) (0 : Fin 1) := by
  funext d
  match d with
  | ⟨0, _⟩ => rfl
  | ⟨1, _⟩ => exact Fin.ext (by have := idx2_lt1 j; show (j 1).val = 0; omega)

/-- The kernel body's spelling — both blocks re-shaped in place, multiplied entrywise, summed along the lanes from the
    zero word, the sums re-shaped to a column — is the column of row dot products. -/
theorem body_rowDots (x0 x1 : FVec Ideal ⟨2, ![a, b]⟩ .f32)
    (h1 : (⟨2, ![a, b]⟩ : Shape).ShapeCasts ⟨2, ![a, b]⟩)
    (hr : (⟨2, ![a, b]⟩ : Shape).Reduces [1] ⟨1, ![a]⟩) (hφ : FKind.Formats .f32)
    (hacc : (0x00000000#32 : BitVec FTy.f32.bits) = FKind.add.neutral .f32 hφ)
    (hc : (⟨1, ![a]⟩ : Shape).ShapeCasts ⟨2, ![a, 1]⟩) :
    shapeCast ⟨2, ![a, 1]⟩
        (multiReduction .add [1] ⟨1, ![a]⟩ (mulf (shapeCast ⟨2, ![a, b]⟩ x0 h1) (shapeCast ⟨2, ![a, b]⟩ x1 h1))
          0x00000000#32 hr hφ hacc) hc
      = rowDots x0 x1 := by
  funext j
  rw [eq_col j, shapeCast_col_apply, rowsum_apply, rowDots_apply]
  simp only [shapeCast_self]
  rfl

end Cert.Lib.RowDots
-- ==== Proof.ScoreValue.lean ====
/-
  What the scoring kernel leaves in its two output columns. Grid point t works on rows 1024·t … 1024·t + 1023: it
  loads that block of rows of the three gathered 4096×64 tables (users, positive items, negative items), and for each
  row stores the dot product of the user row with the positive-item row into the first result and with the
  negative-item row into the second. All windows move together on the row axis, so what point t writes back is
  block t of ONE whole-array function: the column of row dot products of the two tables as the kernel finds them.
  The four blocks tile the 4096 rows.
-/
import proofs.«173116_j21852793602105_1_alg».proof.Proof.Gen.KernelIdeal.Frame
import proofs.«173116_j21852793602105_1_alg».proof.Proof.LibRowDots
import Idealize.ShloMosaic.Lib.Pipeline.Value
import Idealize.ShloMosaic.Lib.ValueIdx

set_option maxRecDepth 16384

open scoped BigOperators

noncomputable section

namespace Cert.KernelIdeal.ScoreValue

open Cert.KernelIdeal Cert.KernelIdeal.Gen Idealize.ShloMosaic Idealize.ShloMosaic.TcCoe Idealize.SL.Sem
open Idealize.ShloMosaic.Pipeline (Dat)
open Idealize.ShloMosaic.ValueIdx Cert.Lib.RowDots

variable (V : (c : Dev nD) → (b : Ref sig .tc) → Buf (Elt Ideal) ((c : Thread nD τ).loc b))

theorem offsets_zero : (![0, 0] : Fin 2 → Nat) = fun _ => 0 := funext fun a => by fin_cases a <;> rfl

/-- The value stored into the first result is the column of dot products of the user rows with the positive-item rows. -/
theorem score_payload_pos (x0 x1 : Vec Ideal S1024x64 .f32) :
    k1_pay2 x0 x1 = rowDots (a := 1024) (b := 64) x0 x1 := by
  unfold k1_pay2 k1_pay1
  exact body_rowDots x0 x1 _ _ _ _ _

/-- The value stored into the second result is the column of dot products of the user rows with the negative-item rows. -/
theorem score_payload_neg (x0 x2 : Vec Ideal S1024x64 .f32) :
    k1_pay3 x0 x2 = rowDots (a := 1024) (b := 64) x0 x2 := by
  unfold k1_pay3 k1_pay1
  exact body_rowDots x0 x2 _ _ _ _ _

/-- All five windows sit on the same block of rows at every grid point, in column block 0. -/
theorem windows_aligned : ∀ t : Fin cfg1.N,
    win1_0.index t (0 : Fin 2) = win1_3.index t (0 : Fin 2) ∧ win1_0.index t (1 : Fin 2) = 0
    ∧ win1_1.index t (0 : Fin 2) = win1_3.index t (0 : Fin 2) ∧ win1_1.index t (1 : Fin 2) = 0
    ∧ win1_2.index t (0 : Fin 2) = win1_3.index t (0 : Fin 2) ∧ win1_2.index t (1 : Fin 2) = 0
    ∧ win1_4.index t (0 : Fin 2) = win1_3.index t (0 : Fin 2) ∧ win1_4.index t (1 : Fin 2) = 0
    ∧ win1_3.index t (0 : Fin 2) ≤ 3 ∧ win1_3.index t (1 : Fin 2) = 0 :=
  (by decide +kernel : ∀ t : Fin grid1.N, _)

/-- Every block of rows of the first result is some grid point's. -/
theorem blocks_onto3 : ∀ (q0 : Fin 4) (q1 : Fin 1), ∃ t : Fin cfg1.N, win1_3.index t = ![q0.val, q1.val] :=
  (by decide +kernel : ∀ (q0 : Fin 4) (q1 : Fin 1), ∃ t : Fin grid1.N, win1_3.index t = ![q0.val, q1.val])

/-- Every block of rows of the second result is some grid point's. -/
theorem blocks_onto4 : ∀ (q0 : Fin 4) (q1 : Fin 1), ∃ t : Fin cfg1.N, win1_4.index t = ![q0.val, q1.val] :=
  (by decide +kernel : ∀ (q0 : Fin 4) (q1 : Fin 1), ∃ t : Fin grid1.N, win1_4.index t = ![q0.val, q1.val])

/-- What grid point t writes back to result 0 is block t of the row dot products of the two gathered tables. -/
theorem score_flushed3 (c : Dev nD) (t : Fin cfg1.N) :
    (dat1 V c).flushed 3 t = ((cfg1.win 3).blk t).view.read (Elt Ideal)
      (rowDots (a := 4096) (b := 64) (V c main_v59) (V c main_v69)) := by
  show (cfg1.win 3).cut (grid1.coords t) ((dat1 V c).after 3 t) = _
  rw [after1_3]
  unfold out1_3
  rw [View.canon_unit_zero offsets_zero]
  simp only [View.ld_unit_zero (S := S1024x64) offsets_zero]
  rw [score_payload_pos]
  obtain ⟨e00, e01, e10, e11, e20, e21, e30, e31, e40, e41⟩ := windows_aligned t
  funext j
  let U0 : S4096x64.Idx → EReal := V c main_v59
  let P0 : S4096x64.Idx → EReal := V c main_v69
  show ∑ k : Fin 64, U0 (((cfg1.win 0).blk t).view.emb (ix2 (⟨(j 0).val, idx2_lt0 j⟩ : Fin 1024) k))
        * P0 (((cfg1.win 1).blk t).view.emb (ix2 (⟨(j 0).val, idx2_lt0 j⟩ : Fin 1024) k))
      = ∑ k : Fin 64, U0 (ix2 (⟨((((cfg1.win 3).blk t).view.emb j) 0).val, idx2_lt0 _⟩ : Fin 4096) k)
        * P0 (ix2 (⟨((((cfg1.win 3).blk t).view.emb j) 0).val, idx2_lt0 _⟩ : Fin 4096) k)
  refine Finset.sum_congr rfl fun k _ => ?_
  have hj : (j 0).val < 1024 := idx2_lt0 j
  have hk : k.val < 64 := k.isLt
  have h0 : ((cfg1.win 0).blk t).view.emb (ix2 (⟨(j 0).val, idx2_lt0 j⟩ : Fin 1024) k)
      = ix2 (⟨((((cfg1.win 3).blk t).view.emb j) 0).val, idx2_lt0 _⟩ : Fin 4096) k := by
    funext a; apply Fin.ext
    match a with
    | ⟨0, _⟩ => show win1_0.index t (0 : Fin 2) * 1024 + 1 * (j 0).val = win1_3.index t (0 : Fin 2) * 1024 + 1 * (j 0).val; omega
    | ⟨1, _⟩ => show win1_0.index t (1 : Fin 2) * 64 + 1 * k.val = k.val; omega
  have h1 : ((cfg1.win 1).blk t).view.emb (ix2 (⟨(j 0).val, idx2_lt0 j⟩ : Fin 1024) k)
      = ix2 (⟨((((cfg1.win 3).blk t).view.emb j) 0).val, idx2_lt0 _⟩ : Fin 4096) k := by
    funext a; apply Fin.ext
    match a with
    | ⟨0, _⟩ => show win1_1.index t (0 : Fin 2) * 1024 + 1 * (j 0).val = win1_3.index t (0 : Fin 2) * 1024 + 1 * (j 0).val; omega
    | ⟨1, _⟩ => show win1_1.index t (1 : Fin 2) * 64 + 1 * k.val = k.val; omega
  rw [h0, h1]

/-- An index of result 0's array is in point t's block iff each coordinate is in the block's range on its axis. -/
theorem score_mem_blk3 (t : Fin cfg1.N) (i : S4096x1.Idx) :
    i ∈ ((cfg1.win 3).blk t).view.set ↔ ∀ a : Fin 2, win1_3.index t a * S1024x1.size a ≤ (i a).val
      ∧ (i a).val < win1_3.index t a * S1024x1.size a + S1024x1.size a := by
  show i ∈ ((View.whole main_v80_0).slice (win1_3.rect t)).set ↔ _
  rw [View.set_slice_whole, Rect.mem_set_unit]
  exact Iff.rfl

/-- Every index of result 0's array lies in the block of the point that owns its rows. -/
theorem score_cover3 (i : S4096x1.Idx) :
    ∃ t : Fin cfg1.N, (cfg1.win 3).flush t = true ∧ i ∈ ((cfg1.win 3).blk t).view.set := by
  have hi0 : (i 0).val < 4096 := (i 0).isLt
  have hi1 : (i 1).val < 1 := (i 1).isLt
  obtain ⟨t, ht⟩ := blocks_onto3 ⟨(i 0).val / 1024, by omega⟩ ⟨(i 1).val / 1, by omega⟩
  have q0 : win1_3.index t (0 : Fin 2) = (i 0).val / 1024 := congrFun ht 0
  have q1 : win1_3.index t (1 : Fin 2) = (i 1).val / 1 := congrFun ht 1
  refine ⟨t, flush1_3 t, ?_⟩
  rw [score_mem_blk3]
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 1 ≤ (i 1).val ∧ (i 1).val < win1_3.index t (1 : Fin 2) * 1 + 1; omega

/-- After the last write-back result 0 is the column of row dot products of the two gathered tables. -/
theorem score_final3 (c : Dev nD) :
    (dat1 V c).arrAt 3 cfg1.N = rowDots (a := 4096) (b := 64) (V c main_v59) (V c main_v69) :=
  (dat1 V c).arrAt_eq_of_cover 3 _ (fun t _ => score_flushed3 V c t) score_cover3

/-- What grid point t writes back to result 1 is block t of the row dot products of the two gathered tables. -/
theorem score_flushed4 (c : Dev nD) (t : Fin cfg1.N) :
    (dat1 V c).flushed 4 t = ((cfg1.win 4).blk t).view.read (Elt Ideal)
      (rowDots (a := 4096) (b := 64) (V c main_v59) (V c main_v79)) := by
  show (cfg1.win 4).cut (grid1.coords t) ((dat1 V c).after 4 t) = _
  rw [after1_4]
  unfold out1_4
  rw [View.canon_unit_zero offsets_zero]
  simp only [View.ld_unit_zero (S := S1024x64) offsets_zero]
  rw [score_payload_neg]
  obtain ⟨e00, e01, e10, e11, e20, e21, e30, e31, e40, e41⟩ := windows_aligned t
  funext j
  let U0 : S4096x64.Idx → EReal := V c main_v59
  let P0 : S4096x64.Idx → EReal := V c main_v79
  show ∑ k : Fin 64, U0 (((cfg1.win 0).blk t).view.emb (ix2 (⟨(j 0).val, idx2_lt0 j⟩ : Fin 1024) k))
        * P0 (((cfg1.win 2).blk t).view.emb (ix2 (⟨(j 0).val, idx2_lt0 j⟩ : Fin 1024) k))
      = ∑ k : Fin 64, U0 (ix2 (⟨((((cfg1.win 4).blk t).view.emb j) 0).val, idx2_lt0 _⟩ : Fin 4096) k)
        * P0 (ix2 (⟨((((cfg1.win 4).blk t).view.emb j) 0).val, idx2_lt0 _⟩ : Fin 4096) k)
  refine Finset.sum_congr rfl fun k _ => ?_
  have hj : (j 0).val < 1024 := idx2_lt0 j
  have hk : k.val < 64 := k.isLt
  have h0 : ((cfg1.win 0).blk t).view.emb (ix2 (⟨(j 0).val, idx2_lt0 j⟩ : Fin 1024) k)
      = ix2 (⟨((((cfg1.win 4).blk t).view.emb j) 0).val, idx2_lt0 _⟩ : Fin 4096) k := by
    funext a; apply Fin.ext
    match a with
    | ⟨0, _⟩ => show win1_0.index t (0 : Fin 2) * 1024 + 1 * (j 0).val = win1_4.index t (0 : Fin 2) * 1024 + 1 * (j 0).val; omega
    | ⟨1, _⟩ => show win1_0.index t (1 : Fin 2) * 64 + 1 * k.val = k.val; omega
  have h1 : ((cfg1.win 2).blk t).view.emb (ix2 (⟨(j 0).val, idx2_lt0 j⟩ : Fin 1024) k)
      = ix2 (⟨((((cfg1.win 4).blk t).view.emb j) 0).val, idx2_lt0 _⟩ : Fin 4096) k := by
    funext a; apply Fin.ext
    match a with
    | ⟨0, _⟩ => show win1_2.index t (0 : Fin 2) * 1024 + 1 * (j 0).val = win1_4.index t (0 : Fin 2) * 1024 + 1 * (j 0).val; omega
    | ⟨1, _⟩ => show win1_2.index t (1 : Fin 2) * 64 + 1 * k.val = k.val; omega
  rw [h0, h1]

/-- An index of result 1's array is in point t's block iff each coordinate is in the block's range on its axis. -/
theorem score_mem_blk4 (t : Fin cfg1.N) (i : S4096x1.Idx) :
    i ∈ ((cfg1.win 4).blk t).view.set ↔ ∀ a : Fin 2, win1_4.index t a * S1024x1.size a ≤ (i a).val
      ∧ (i a).val < win1_4.index t a * S1024x1.size a + S1024x1.size a := by
  show i ∈ ((View.whole main_v80_1).slice (win1_4.rect t)).set ↔ _
  rw [View.set_slice_whole, Rect.mem_set_unit]
  exact Iff.rfl

/-- Every index of result 1's array lies in the block of the point that owns its rows. -/
theorem score_cover4 (i : S4096x1.Idx) :
    ∃ t : Fin cfg1.N, (cfg1.win 4).flush t = true ∧ i ∈ ((cfg1.win 4).blk t).view.set := by
  have hi0 : (i 0).val < 4096 := (i 0).isLt
  have hi1 : (i 1).val < 1 := (i 1).isLt
  obtain ⟨t, ht⟩ := blocks_onto4 ⟨(i 0).val / 1024, by omega⟩ ⟨(i 1).val / 1, by omega⟩
  have q0 : win1_4.index t (0 : Fin 2) = (i 0).val / 1024 := congrFun ht 0
  have q1 : win1_4.index t (1 : Fin 2) = (i 1).val / 1 := congrFun ht 1
  refine ⟨t, flush1_4 t, ?_⟩
  rw [score_mem_blk4]
  intro a
  match a with
  | ⟨0, _⟩ => show win1_4.index t (0 : Fin 2) * 1024 ≤ (i 0).val ∧ (i 0).val < win1_4.index t (0 : Fin 2) * 1024 + 1024; omega
  | ⟨1, _⟩ => show win1_4.index t (1 : Fin 2) * 1 ≤ (i 1).val ∧ (i 1).val < win1_4.index t (1 : Fin 2) * 1 + 1; omega

/-- After the last write-back result 1 is the column of row dot products of the two gathered tables. -/
theorem score_final4 (c : Dev nD) :
    (dat1 V c).arrAt 4 cfg1.N = rowDots (a := 4096) (b := 64) (V c main_v59) (V c main_v79) :=
  (dat1 V c).arrAt_eq_of_cover 4 _ (fun t _ => score_flushed4 V c t) score_cover4

end Cert.KernelIdeal.ScoreValue

end
-- ==== Proof.LibRowGather.lean ====
/-
  Rows of a table picked by an array of integer words: what `table[idx]` lowers to on the host, read at an index.
  The table has N rows of D entries. Every start word is read as a signed integer and clamped into [0, N − 1]
  (StableHLO's gather clamps each start index so that the one-row slice fits); the result's row b is the table's
  row at that clamped position, entry for entry. Two spellings of the index array occur: B×1 words giving a B×D
  result, and B×1×1 words giving a B×1×D result. Nothing here mentions a program.
-/
import Idealize.ShloMosaic.PureOps.ShapeOps
import Idealize.ShloMosaic.Lib.ValueIdx

namespace Cert.Lib.RowGather

open Idealize.ShloMosaic Idealize.ShloMosaic.ValueIdx

section Rows
variable {α : Type}

/-- The row of an N-row table that a start word selects: the word read signed, clamped into [0, N − 1]. -/
def rowOf (N : Nat) (hN : 0 < N) {w : Nat} (v : BitVec w) : Fin N := ⟨min v.toInt.toNat (N - 1), by omega⟩

/-- The dimension numbers of a row gather with a B×1 index array: the result's axis 1 is the row's entries, the
    table's axis 0 is collapsed and addressed by the one component of each start index. -/
abbrev rowsDims (N B D : Nat)
    (wf : GatherDims.WF ⟨2, ![N, D]⟩ ⟨2, ![B, 1]⟩ ⟨2, ![B, D]⟩ [1] [0] [] [0] [] 1 ![1, D]) :
    GatherDims ⟨2, ![N, D]⟩ ⟨2, ![B, 1]⟩ ⟨2, ![B, D]⟩ where
  offsetDims := [1]
  collapsedSliceDims := [0]
  operandBatchingDims := []
  startIndicesBatchingDims := []
  startIndexMap := [0]
  indexVectorDim := 1
  sliceSizes := ![1, D]
  wf := wf

/-- Entry (b, q) of the gathered rows is entry q of the table's row selected by the word at (b, 0). -/
theorem gather_rows_apply {N B D w : Nat} (hN : 0 < N)
    (wf : GatherDims.WF ⟨2, ![N, D]⟩ ⟨2, ![B, 1]⟩ ⟨2, ![B, D]⟩ [1] [0] [] [0] [] 1 ![1, D])
    (x : (⟨2, ![N, D]⟩ : Shape).Idx → α) (idx : IVec ⟨2, ![B, 1]⟩ w) (b : Fin B) (q : Fin D) :
    Host.gather (rowsDims N B D wf) x idx (ix2 b q) = x (ix2 (rowOf N hN (idx (ix2 b 0))) q) := by
  unfold Host.gather
  refine congrArg x ?_
  funext a
  refine Fin.ext ?_
  match a with
  | ⟨0, _⟩ =>
    show (rowsDims N B D wf).start (ix2 b q) idx (0 : Fin 2) + (rowsDims N B D wf).batchCoord (ix2 b q) (0 : Fin 2)
        + (rowsDims N B D wf).offCoord (ix2 b q) (0 : Fin 2) = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N B D wf).startIndexMap from List.mem_singleton.mpr rfl)]
    have hsi : (rowsDims N B D wf).siIdx (ix2 b q) ⟨List.idxOf (0 : Fin 2) (rowsDims N B D wf).startIndexMap,
        List.idxOf_lt_length_iff.2 (List.mem_singleton.mpr rfl)⟩ = ix2 b 0 := by
      funext c; refine Fin.ext ?_
      match c with
      | ⟨0, _⟩ => rfl
      | ⟨1, _⟩ => rfl
    rw [hsi]
    rfl
  | ⟨1, _⟩ =>
    have hs : (rowsDims N B D wf).start (ix2 b q) idx (1 : Fin 2) = 0 := by
      unfold GatherDims.start
      rw [dif_neg (show (1 : Fin 2) ∉ [(0 : Fin 2)] from by decide)]
    have ho : (rowsDims N B D wf).offCoord (ix2 b q) (1 : Fin 2) = q.val := by
      unfold GatherDims.offCoord
      rw [dif_pos ((GatherDims.mem_sKept _ _).mpr ⟨(show (1 : Fin 2) ∉ [(0 : Fin 2)] from by decide), List.not_mem_nil⟩)]
      rfl
    show (rowsDims N B D wf).start (ix2 b q) idx (1 : Fin 2) + (rowsDims N B D wf).batchCoord (ix2 b q) (1 : Fin 2)
        + (rowsDims N B D wf).offCoord (ix2 b q) (1 : Fin 2) = q.val
    rw [GatherDims.batchCoord_eq_zero _ _ _ List.not_mem_nil, hs, ho]; omega

/-- The dimension numbers of a row gather with a B×1×1 index array: the result is B×1×D, its last axis the row's
    entries. -/
abbrev rowsDims3 (N B D : Nat)
    (wf : GatherDims.WF ⟨2, ![N, D]⟩ ⟨3, ![B, 1, 1]⟩ ⟨3, ![B, 1, D]⟩ [2] [0] [] [0] [] 2 ![1, D]) :
    GatherDims ⟨2, ![N, D]⟩ ⟨3, ![B, 1, 1]⟩ ⟨3, ![B, 1, D]⟩ where
  offsetDims := [2]
  collapsedSliceDims := [0]
  operandBatchingDims := []
  startIndicesBatchingDims := []
  startIndexMap := [0]
  indexVectorDim := 2
  sliceSizes := ![1, D]
  wf := wf

/-- Entry (b, 0, q) of the gathered rows is entry q of the table's row selected by the word at (b, 0, 0). -/
theorem gather_rows3_apply {N B D w : Nat} (hN : 0 < N)
    (wf : GatherDims.WF ⟨2, ![N, D]⟩ ⟨3, ![B, 1, 1]⟩ ⟨3, ![B, 1, D]⟩ [2] [0] [] [0] [] 2 ![1, D])
    (x : (⟨2, ![N, D]⟩ : Shape).Idx → α) (idx : IVec ⟨3, ![B, 1, 1]⟩ w) (b : Fin B) (q : Fin D) :
    Host.gather (rowsDims3 N B D wf) x idx (ix3 b 0 q) = x (ix2 (rowOf N hN (idx (ix3 b 0 0))) q) := by
  unfold Host.gather
  refine congrArg x ?_
  funext a
  refine Fin.ext ?_
  match a with
  | ⟨0, _⟩ =>
    show (rowsDims3 N B D wf).start (ix3 b 0 q) idx (0 : Fin 2) + (rowsDims3 N B D wf).batchCoord (ix3 b 0 q) (0 : Fin 2)
        + (rowsDims3 N B D wf).offCoord (ix3 b 0 q) (0 : Fin 2) = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims3 N B D wf).startIndexMap from List.mem_singleton.mpr rfl)]
    have hsi : (rowsDims3 N B D wf).siIdx (ix3 b 0 q) ⟨List.idxOf (0 : Fin 2) (rowsDims3 N B D wf).startIndexMap,
        List.idxOf_lt_length_iff.2 (List.mem_singleton.mpr rfl)⟩ = ix3 b 0 0 := by
      funext c; refine Fin.ext ?_
      match c with
      | ⟨0, _⟩ => rfl
      | ⟨1, _⟩ => rfl
      | ⟨2, _⟩ => rfl
    rw [hsi]
    rfl
  | ⟨1, _⟩ =>
    have hs : (rowsDims3 N B D wf).start (ix3 b 0 q) idx (1 : Fin 2) = 0 := by
      unfold GatherDims.start
      rw [dif_neg (show (1 : Fin 2) ∉ [(0 : Fin 2)] from by decide)]
    have ho : (rowsDims3 N B D wf).offCoord (ix3 b 0 q) (1 : Fin 2) = q.val := by
      unfold GatherDims.offCoord
      rw [dif_pos ((GatherDims.mem_sKept _ _).mpr ⟨(show (1 : Fin 2) ∉ [(0 : Fin 2)] from by decide), List.not_mem_nil⟩)]
      rfl
    show (rowsDims3 N B D wf).start (ix3 b 0 q) idx (1 : Fin 2) + (rowsDims3 N B D wf).batchCoord (ix3 b 0 q) (1 : Fin 2)
        + (rowsDims3 N B D wf).offCoord (ix3 b 0 q) (1 : Fin 2) = q.val
    rw [GatherDims.batchCoord_eq_zero _ _ _ List.not_mem_nil, hs, ho]; omega

end Rows

end Cert.Lib.RowGather
-- ==== Proof.LibPairScores.lean ====
/-
  Scores of pairs of rows of one table, on the extended reals. Row r of the result is the dot product of two rows of
  an N×D table T: the row a first selector ru gives r, and the row a second selector rp gives r. Two programs that
  first gather the two families of rows into B×D arrays U and P and then take row dot products compute this function
  as soon as each gathered entry is the table's entry of the selected row. Also here: how an index word is read on
  an axis of n entries (a negative word counts back from the end, by adding n), and the spelling of a B×1 array of
  such words that first flattens the array to B words, wraps each word, and lays the words out as a column again.
  Nothing here mentions a program.
-/
import Idealize.ShloMosaic.PureOps.Ideal
import Idealize.ShloMosaic.Lib.ValueIdx
import Idealize.ShloMosaic.Lib.Pipeline.Value
import proofs.«173116_j21852793602105_1_alg».proof.Proof.LibRowReductions
import proofs.«173116_j21852793602105_1_alg».proof.Proof.LibRowDots
import proofs.«173116_j21852793602105_1_alg».proof.Proof.LibRowGather

open scoped BigOperators

namespace Cert.Lib.PairScores

open Idealize.ShloMosaic Idealize.ShloMosaic.ValueIdx Cert.Lib.RowReductions Cert.Lib.RowDots Cert.Lib.RowGather

/-! ## Index words -/

/-- An index word read on an axis of n entries: a negative word counts back from the end. -/
def wrapIndex (n v : BitVec 32) : BitVec 32 := Scalar.select (IntOp.cmpi .slt v 0#32) (IntOp.addi v n) v

section Words
variable {B : Nat}

/-- A scalar broadcast into a vector of B entries reads the scalar at every entry. -/
theorem bcast_scalar_vec_apply {α : Type} (x : (⟨0, ![]⟩ : Shape).Idx → α)
    (h : (⟨0, ![]⟩ : Shape).BroadcastsInDim ⟨1, ![B]⟩ ![]) (i : (⟨1, ![B]⟩ : Shape).Idx) :
    broadcastInDim ⟨1, ![B]⟩ ![] h x i = x ix0 :=
  broadcastInDim_apply _ h x _ _ fun ax => ax.elim0

/-- A B×1 array flattened to B entries reads its entry (r, 0) at r. -/
theorem flatten_col_apply {α : Type} (x : (⟨2, ![B, 1]⟩ : Shape).Idx → α)
    (h : (⟨2, ![B, 1]⟩ : Shape).ShapeCasts ⟨1, ![B]⟩) (r : Fin B) :
    shapeCast ⟨1, ![B]⟩ x h (ix1 r) = x (ix2 r 0) := by
  refine shapeCast_apply x h _ _ ?_
  rw [Shape.rowMajor_val_one, Shape.rowMajor_val_two]
  show r.val * 1 + 0 = r.val
  omega

/-- B words, each wrapped on an axis of n entries and laid out as a B×1 column: entry (r, 0) is word r wrapped. -/
theorem wrapped_col_apply (y : IVec ⟨1, ![B]⟩ 32) (n : BitVec 32)
    (h0 : (⟨0, ![]⟩ : Shape).BroadcastsInDim ⟨1, ![B]⟩ ![])
    (h1 : (⟨1, ![B]⟩ : Shape).BroadcastsInDim ⟨2, ![B, 1]⟩ ![0]) (r : Fin B) :
    broadcastInDim ⟨2, ![B, 1]⟩ ![0] h1
        (select (cmpi .slt y (broadcastInDim ⟨1, ![B]⟩ ![] h0 (constantI ⟨0, ![]⟩ 32 0#32)))
          (addi y (broadcastInDim ⟨1, ![B]⟩ ![] h0 (constantI ⟨0, ![]⟩ 32 n))) y) (ix2 r 0)
      = wrapIndex n (y (ix1 r)) := by
  rw [bcastInDim_col_apply]
  show Scalar.select (IntOp.cmpi .slt (y (ix1 r)) (broadcastInDim ⟨1, ![B]⟩ ![] h0 (constantI ⟨0, ![]⟩ 32 0#32) (ix1 r)))
      (IntOp.addi (y (ix1 r)) (broadcastInDim ⟨1, ![B]⟩ ![] h0 (constantI ⟨0, ![]⟩ 32 n) (ix1 r))) (y (ix1 r)) = _
  rw [bcast_scalar_vec_apply, bcast_scalar_vec_apply]
  rfl

/-- The table row that word (r, 0) of a B×1 index array selects in a table of N rows, the word wrapped on an axis of
    n entries and then clamped into the table. -/
def rowAt (N : Nat) (hN : 0 < N) (n : BitVec 32) (x : IVec ⟨2, ![B, 1]⟩ 32) (r : Fin B) : Fin N :=
  rowOf N hN (wrapIndex n (x (ix2 r 0)))

/-- The same with the constant word off added to the index word first (a table holding a second family of rows
    after a first one). -/
def rowAtOffset (N : Nat) (hN : 0 < N) (n off : BitVec 32) (x : IVec ⟨2, ![B, 1]⟩ 32) (r : Fin B) : Fin N :=
  rowOf N hN (wrapIndex n (IntOp.addi (x (ix2 r 0)) off))

end Words

/-! ## Scores of pairs of rows -/

section Scores
variable {N B D : Nat}

/-- The B×1 column whose entry (r, 0) is the dot product of rows ru r and rp r of the table T. -/
noncomputable def pairScores (T : (⟨2, ![N, D]⟩ : Shape).Idx → EReal) (ru rp : Fin B → Fin N) :
    (⟨2, ![B, 1]⟩ : Shape).Idx → EReal :=
  fun j => ∑ k : Fin D, T (ix2 (ru ⟨(j 0).val, idx2_lt0 j⟩) k) * T (ix2 (rp ⟨(j 0).val, idx2_lt0 j⟩) k)

theorem pairScores_apply (T : (⟨2, ![N, D]⟩ : Shape).Idx → EReal) (ru rp : Fin B → Fin N) (r : Fin B) :
    pairScores T ru rp (ix2 r 0) = ∑ k : Fin D, T (ix2 (ru r) k) * T (ix2 (rp r) k) := rfl

/-- Row dot products of two gathered arrays are the pair scores of the table the rows were gathered from. -/
theorem rowDots_gathered (T : (⟨2, ![N, D]⟩ : Shape).Idx → EReal) (ru rp : Fin B → Fin N)
    (U P : (⟨2, ![B, D]⟩ : Shape).Idx → EReal)
    (hU : ∀ (r : Fin B) (k : Fin D), U (ix2 r k) = T (ix2 (ru r) k))
    (hP : ∀ (r : Fin B) (k : Fin D), P (ix2 r k) = T (ix2 (rp r) k)) :
    rowDots U P = pairScores T ru rp := by
  funext j
  rw [eq_col j, rowDots_apply, pairScores_apply]
  exact Finset.sum_congr rfl fun k _ => by rw [hU, hP]

end Scores

end Cert.Lib.PairScores
-- ==== Proof.PickedRows.lean ====
/-
  The rows the kernel program picks out of the pooled table between its two kernels. Each of the three B×1 index
  arrays (users, positive items, negative items; B = 4096) is flattened to B words; the item words get 50000 added
  (items follow the 50000 users in the table); every word is then wrapped on an axis of 100000 entries and the words
  are laid out as a B×1 column again, which a row gather reads. So entry (r, k) of a gathered 4096×64 array is entry
  k of the table's row selected by word (r, 0): the word, shifted for an item, wrapped, and clamped into the table.
  Stated over an arbitrary table and arbitrary index words.
-/
import proofs.«173116_j21852793602105_1_alg».proof.Proof.Gen.KernelIdeal
import proofs.«173116_j21852793602105_1_alg».proof.Proof.LibRowGather
import proofs.«173116_j21852793602105_1_alg».proof.Proof.LibPairScores
import Idealize.ShloMosaic.Lib.ValueIdx

noncomputable section

namespace Cert.KernelIdeal.Picked

open Cert.KernelIdeal Cert.KernelIdeal.Gen Idealize.ShloMosaic Idealize.ShloMosaic.ValueIdx
open Cert.Lib.RowGather Cert.Lib.PairScores

/-- The user index array as the gather reads it: flattened, wrapped, a column again. -/
def userWords (x : IVec S4096x1 32) : IVec S4096x1 32 :=
  broadcastInDim S4096x1 ![0] bcast_S4096_S4096x1_0
    (select (cmpi .slt (shapeCast S4096 x shapeCasts_S4096x1_S4096) (broadcastInDim S4096 ![] bcast_S_S4096 (constantI S_ 32 0#32)))
      (addi (shapeCast S4096 x shapeCasts_S4096x1_S4096) (broadcastInDim S4096 ![] bcast_S_S4096 (constantI S_ 32 100000#32)))
      (shapeCast S4096 x shapeCasts_S4096x1_S4096))

/-- An item index array as the gather reads it: flattened, shifted past the users, wrapped, a column again. -/
def itemWords (x : IVec S4096x1 32) : IVec S4096x1 32 :=
  broadcastInDim S4096x1 ![0] bcast_S4096_S4096x1_0
    (select (cmpi .slt (addi (shapeCast S4096 x shapeCasts_S4096x1_S4096) (broadcastInDim S4096 ![] bcast_S_S4096 (constantI S_ 32 50000#32)))
        (broadcastInDim S4096 ![] bcast_S_S4096 (constantI S_ 32 0#32)))
      (addi (addi (shapeCast S4096 x shapeCasts_S4096x1_S4096) (broadcastInDim S4096 ![] bcast_S_S4096 (constantI S_ 32 50000#32)))
        (broadcastInDim S4096 ![] bcast_S_S4096 (constantI S_ 32 100000#32)))
      (addi (shapeCast S4096 x shapeCasts_S4096x1_S4096) (broadcastInDim S4096 ![] bcast_S_S4096 (constantI S_ 32 50000#32))))

/-- Word (r, 0) of the user column is the user's index word wrapped. -/
theorem userWords_apply (x : IVec S4096x1 32) (r : Fin 4096) :
    userWords x (ix2 r 0) = wrapIndex 100000#32 (x (ix2 r 0)) := by
  unfold userWords
  rw [wrapped_col_apply, flatten_col_apply]

/-- Word (r, 0) of an item column is the item's index word plus 50000, wrapped. -/
theorem itemWords_apply (x : IVec S4096x1 32) (r : Fin 4096) :
    itemWords x (ix2 r 0) = wrapIndex 100000#32 (IntOp.addi (x (ix2 r 0)) 50000#32) := by
  unfold itemWords
  rw [wrapped_col_apply]
  show wrapIndex 100000#32 (IntOp.addi (shapeCast S4096 x shapeCasts_S4096x1_S4096 (ix1 r))
      (broadcastInDim S4096 ![] bcast_S_S4096 (constantI S_ 32 50000#32) (ix1 r))) = _
  rw [flatten_col_apply, bcast_scalar_vec_apply]
  rfl

/-- Entry (r, k) of the rows gathered from a table T by a column of words w is entry k of T's row selected by word (r, 0). -/
theorem gathered_apply {α : Type} (T : S100000x64.Idx → α) (w : IVec S4096x1 32) (r : Fin 4096) (k : Fin 64) :
    Host.gather gather_S100000x64_S4096x1_S4096x64_1_0_n_n_0_1_164 T w (ix2 r k)
      = T (ix2 (rowOf 100000 (by decide) (w (ix2 r 0))) k) :=
  gather_rows_apply (N := 100000) (B := 4096) (D := 64) (by decide)
    gather_S100000x64_S4096x1_S4096x64_1_0_n_n_0_1_164_wf T w r k

/-- A gathered user row is the table's row the user's word selects. -/
theorem user_rows_apply {α : Type} (T : S100000x64.Idx → α) (x : IVec S4096x1 32) (r : Fin 4096) (k : Fin 64) :
    Host.gather gather_S100000x64_S4096x1_S4096x64_1_0_n_n_0_1_164 T (userWords x) (ix2 r k)
      = T (ix2 (rowAt 100000 (by decide) 100000#32 x r) k) := by
  rw [gathered_apply, userWords_apply]
  rfl

/-- A gathered item row is the table's row the item's shifted word selects. -/
theorem item_rows_apply {α : Type} (T : S100000x64.Idx → α) (x : IVec S4096x1 32) (r : Fin 4096) (k : Fin 64) :
    Host.gather gather_S100000x64_S4096x1_S4096x64_1_0_n_n_0_1_164 T (itemWords x) (ix2 r k)
      = T (ix2 (rowAtOffset 100000 (by decide) 100000#32 50000#32 x r) k) := by
  rw [gathered_apply, itemWords_apply]
  rfl

end Cert.KernelIdeal.Picked

end
-- ==== Proof.KernelValue.lean ====
/-
  The idealized kernel's two results as functions of its arguments. Read stretch by stretch: the host operations of
  the graph propagation leave the three propagated layer tables (the same operations, in the same order, as the
  reference's, so the same functions of the embeddings and the edge lists); the pooling kernel leaves their entrywise
  mean with the embeddings; the host operations after it gather from that table the rows the three index arrays
  select; the scoring kernel leaves, per row, the dot products of the gathered user row with the gathered item rows.
  Together: each result is the column of scores of pairs of rows of the pooled table.
-/
import proofs.«173116_j21852793602105_1_alg».proof.Proof.Gen.KernelIdeal.Frame
import proofs.«173116_j21852793602105_1_alg».proof.Proof.Gen.ReferenceIdeal.Read
import proofs.«173116_j21852793602105_1_alg».proof.Proof.PoolValue
import proofs.«173116_j21852793602105_1_alg».proof.Proof.ScoreValue
import proofs.«173116_j21852793602105_1_alg».proof.Proof.PickedRows
import proofs.«173116_j21852793602105_1_alg».proof.Proof.LibPairScores
import proofs.«173116_j21852793602105_1_alg».proof.Proof.LibLayerMean
import Idealize.ShloMosaic.Lib.StableHlo.Run
import Idealize.ShloMosaic.Lib.ValueIdx

set_option maxRecDepth 16384

noncomputable section

namespace Cert.KernelIdeal.KernelValue

open Cert.KernelIdeal Cert.KernelIdeal.Gen Idealize.ShloMosaic Idealize.ShloMosaic.TcCoe Idealize.SL.Sem
open Idealize.ShloMosaic.StableHlo Idealize.ShloMosaic.ValueIdx
open Cert.Lib.LayerMean Cert.Lib.PairScores Cert.Lib.RowDots
open Cert.KernelIdeal.Picked

variable (m : (ℓ : Loc nD τ sig) → Buf (Elt Ideal) ℓ) (ρ : Dev nD → PrngReg)

/-! ## Before the pooling kernel -/

/-- The embeddings reach the pooling kernel as launched. -/
theorem entry_embeddings (c : Dev nD) :
    W1 m ρ c (Proc.devRef .tc main_arg0) = m ((c.tc : Thread nD τ).loc main_arg0) := by
  show StableHlo.after hostOps0 (W0 m ρ c) (Proc.devRef .tc main_arg0) = _
  after_results_simp

/-- The first propagated layer reaches the pooling kernel as the reference's first layer of the launched embeddings and
    edge lists: the two programs apply the same operations in the same order. -/
theorem entry_layer1 (c : Dev nD) :
    (W1 m ρ c (Proc.devRef .tc main_v22) : S100000x64.Idx → EReal)
      = Cert.ReferenceIdeal.Read.val_main_v22 (F := Ideal) (m ((c.tc : Thread nD τ).loc main_arg0)) (m ((c.tc : Thread nD τ).loc main_arg1)) (m ((c.tc : Thread nD τ).loc main_arg2)) := by
  show StableHlo.after hostOps0 (W0 m ρ c) (Proc.devRef .tc main_v22) = _
  after_results_simp
  rfl

/-- The second propagated layer reaches the pooling kernel as the reference's second layer of the launched embeddings and
    edge lists: the two programs apply the same operations in the same order. -/
theorem entry_layer2 (c : Dev nD) :
    (W1 m ρ c (Proc.devRef .tc main_v36) : S100000x64.Idx → EReal)
      = Cert.ReferenceIdeal.Read.val_main_v36 (F := Ideal) (m ((c.tc : Thread nD τ).loc main_arg0)) (m ((c.tc : Thread nD τ).loc main_arg1)) (m ((c.tc : Thread nD τ).loc main_arg2)) := by
  show StableHlo.after hostOps0 (W0 m ρ c) (Proc.devRef .tc main_v36) = _
  after_results_simp
  rfl

/-- The third propagated layer reaches the pooling kernel as the reference's third layer of the launched embeddings and
    edge lists: the two programs apply the same operations in the same order. -/
theorem entry_layer3 (c : Dev nD) :
    (W1 m ρ c (Proc.devRef .tc main_v50) : S100000x64.Idx → EReal)
      = Cert.ReferenceIdeal.Read.val_main_v50 (F := Ideal) (m ((c.tc : Thread nD τ).loc main_arg0)) (m ((c.tc : Thread nD τ).loc main_arg1)) (m ((c.tc : Thread nD τ).loc main_arg2)) := by
  show StableHlo.after hostOps0 (W0 m ρ c) (Proc.devRef .tc main_v50) = _
  after_results_simp
  rfl

/-! ## The pooled table -/

/-- After the pooling kernel the pooled table is the entrywise mean of the embeddings and the three layers. -/
theorem pooled (c : Dev nD) :
    (W2 m ρ c (Proc.devRef .tc main_v51) : S100000x64.Idx → EReal)
      = (layerMean (s := S100000x64) (m ((c.tc : Thread nD τ).loc main_arg0))
          (Cert.ReferenceIdeal.Read.val_main_v22 (F := Ideal) (m ((c.tc : Thread nD τ).loc main_arg0)) (m ((c.tc : Thread nD τ).loc main_arg1)) (m ((c.tc : Thread nD τ).loc main_arg2)))
          (Cert.ReferenceIdeal.Read.val_main_v36 (F := Ideal) (m ((c.tc : Thread nD τ).loc main_arg0)) (m ((c.tc : Thread nD τ).loc main_arg1)) (m ((c.tc : Thread nD τ).loc main_arg2)))
          (Cert.ReferenceIdeal.Read.val_main_v50 (F := Ideal) (m ((c.tc : Thread nD τ).loc main_arg0)) (m ((c.tc : Thread nD τ).loc main_arg1)) (m ((c.tc : Thread nD τ).loc main_arg2)))) := by
  refine ((W2_arr m ρ c 4).trans (PoolValue.pool_final (V1 m ρ) c)).trans ?_
  show layerMean (s := S100000x64) (W1 m ρ c (Proc.devRef .tc main_arg0)) (W1 m ρ c (Proc.devRef .tc main_v22))
      (W1 m ρ c (Proc.devRef .tc main_v36)) (W1 m ρ c (Proc.devRef .tc main_v50)) = _
  rw [entry_embeddings, entry_layer1, entry_layer2, entry_layer3]

/-! ## Between the two kernels -/

/-- The user index array reaches the row gathers as launched. -/
theorem mid_users (c : Dev nD) :
    W2 m ρ c (Proc.devRef .tc main_arg3) = m ((c.tc : Thread nD τ).loc main_arg3) := by
  rw [W2_of_ne m ρ c main_arg3 (by decide)]
  show StableHlo.after hostOps0 (W0 m ρ c) (Proc.devRef .tc main_arg3) = _
  after_results_simp

/-- The positive-item index array reaches the row gathers as launched. -/
theorem mid_pos (c : Dev nD) :
    W2 m ρ c (Proc.devRef .tc main_arg4) = m ((c.tc : Thread nD τ).loc main_arg4) := by
  rw [W2_of_ne m ρ c main_arg4 (by decide)]
  show StableHlo.after hostOps0 (W0 m ρ c) (Proc.devRef .tc main_arg4) = _
  after_results_simp

/-- The negative-item index array reaches the row gathers as launched. -/
theorem mid_neg (c : Dev nD) :
    W2 m ρ c (Proc.devRef .tc main_arg5) = m ((c.tc : Thread nD τ).loc main_arg5) := by
  rw [W2_of_ne m ρ c main_arg5 (by decide)]
  show StableHlo.after hostOps0 (W0 m ρ c) (Proc.devRef .tc main_arg5) = _
  after_results_simp

/-- The gathered user rows: the row gather of the pooled table at the user words. -/
theorem picked_users (c : Dev nD) :
    (W3 m ρ c (Proc.devRef .tc main_v59) : S4096x64.Idx → EReal)
      = Host.gather gather_S100000x64_S4096x1_S4096x64_1_0_n_n_0_1_164 (W2 m ρ c (Proc.devRef .tc main_v51))
          (userWords (W2 m ρ c (Proc.devRef .tc main_arg3))) := by
  show StableHlo.after hostOps1 (W2 m ρ c) (Proc.devRef .tc main_v59) = _
  after_results_simp
  rfl

/-- The gathered positive-item rows: the row gather of the pooled table at the positive-item words. -/
theorem picked_pos (c : Dev nD) :
    (W3 m ρ c (Proc.devRef .tc main_v69) : S4096x64.Idx → EReal)
      = Host.gather gather_S100000x64_S4096x1_S4096x64_1_0_n_n_0_1_164 (W2 m ρ c (Proc.devRef .tc main_v51))
          (itemWords (W2 m ρ c (Proc.devRef .tc main_arg4))) := by
  show StableHlo.after hostOps1 (W2 m ρ c) (Proc.devRef .tc main_v69) = _
  after_results_simp
  rfl

/-- The gathered negative-item rows: the row gather of the pooled table at the negative-item words. -/
theorem picked_neg (c : Dev nD) :
    (W3 m ρ c (Proc.devRef .tc main_v79) : S4096x64.Idx → EReal)
      = Host.gather gather_S100000x64_S4096x1_S4096x64_1_0_n_n_0_1_164 (W2 m ρ c (Proc.devRef .tc main_v51))
          (itemWords (W2 m ρ c (Proc.devRef .tc main_arg5))) := by
  show StableHlo.after hostOps1 (W2 m ρ c) (Proc.devRef .tc main_v79) = _
  after_results_simp
  rfl

/-! ## The two results -/

/-- The positive result: per row, the score of the user's row against the positive item's row of the pooled table. -/
theorem result_pos (c : Dev nD) :
    (W4 m ρ c (Proc.devRef .tc main_v80_0) : S4096x1.Idx → EReal)
      = pairScores (N := 100000) (B := 4096) (D := 64)
        (layerMean (s := S100000x64) (m ((c.tc : Thread nD τ).loc main_arg0))
          (Cert.ReferenceIdeal.Read.val_main_v22 (F := Ideal) (m ((c.tc : Thread nD τ).loc main_arg0)) (m ((c.tc : Thread nD τ).loc main_arg1)) (m ((c.tc : Thread nD τ).loc main_arg2)))
          (Cert.ReferenceIdeal.Read.val_main_v36 (F := Ideal) (m ((c.tc : Thread nD τ).loc main_arg0)) (m ((c.tc : Thread nD τ).loc main_arg1)) (m ((c.tc : Thread nD τ).loc main_arg2)))
          (Cert.ReferenceIdeal.Read.val_main_v50 (F := Ideal) (m ((c.tc : Thread nD τ).loc main_arg0)) (m ((c.tc : Thread nD τ).loc main_arg1)) (m ((c.tc : Thread nD τ).loc main_arg2))))
        (rowAt 100000 (by decide) 100000#32 (m ((c.tc : Thread nD τ).loc main_arg3)))
        (rowAtOffset 100000 (by decide) 100000#32 50000#32 (m ((c.tc : Thread nD τ).loc main_arg4))) := by
  refine ((W4_arr m ρ c 3).trans (ScoreValue.score_final3 (V3 m ρ) c)).trans ?_
  show rowDots (a := 4096) (b := 64) (W3 m ρ c (Proc.devRef .tc main_v59)) (W3 m ρ c (Proc.devRef .tc main_v69)) = _
  rw [picked_users, picked_pos, pooled, mid_users, mid_pos]
  exact rowDots_gathered _ _ _ _ _ (fun r k => user_rows_apply _ _ r k) (fun r k => item_rows_apply _ _ r k)

/-- The negative result: per row, the score of the user's row against the negative item's row of the pooled table. -/
theorem result_neg (c : Dev nD) :
    (W4 m ρ c (Proc.devRef .tc main_v80_1) : S4096x1.Idx → EReal)
      = pairScores (N := 100000) (B := 4096) (D := 64)
        (layerMean (s := S100000x64) (m ((c.tc : Thread nD τ).loc main_arg0))
          (Cert.ReferenceIdeal.Read.val_main_v22 (F := Ideal) (m ((c.tc : Thread nD τ).loc main_arg0)) (m ((c.tc : Thread nD τ).loc main_arg1)) (m ((c.tc : Thread nD τ).loc main_arg2)))
          (Cert.ReferenceIdeal.Read.val_main_v36 (F := Ideal) (m ((c.tc : Thread nD τ).loc main_arg0)) (m ((c.tc : Thread nD τ).loc main_arg1)) (m ((c.tc : Thread nD τ).loc main_arg2)))
          (Cert.ReferenceIdeal.Read.val_main_v50 (F := Ideal) (m ((c.tc : Thread nD τ).loc main_arg0)) (m ((c.tc : Thread nD τ).loc main_arg1)) (m ((c.tc : Thread nD τ).loc main_arg2))))
        (rowAt 100000 (by decide) 100000#32 (m ((c.tc : Thread nD τ).loc main_arg3)))
        (rowAtOffset 100000 (by decide) 100000#32 50000#32 (m ((c.tc : Thread nD τ).loc main_arg5))) := by
  refine ((W4_arr m ρ c 4).trans (ScoreValue.score_final4 (V3 m ρ) c)).trans ?_
  show rowDots (a := 4096) (b := 64) (W3 m ρ c (Proc.devRef .tc main_v59)) (W3 m ρ c (Proc.devRef .tc main_v79)) = _
  rw [picked_users, picked_neg, pooled, mid_users, mid_neg]
  exact rowDots_gathered _ _ _ _ _ (fun r k => user_rows_apply _ _ r k) (fun r k => item_rows_apply _ _ r k)

end Cert.KernelIdeal.KernelValue

end
-- ==== Proof.RefValue.lean ====
/-
  The reference's two results as functions of its arguments, at the ideal values. The pooled table is the entrywise
  mean of the embeddings and the three propagated layers: the four tables are stacked along a new last axis, summed
  along it from zero and divided by four, which on the extended reals is the running sum times one quarter. Each of
  the three B×1 index arrays (the item arrays with 50000 added) is wrapped on an axis of 100000 entries and given a
  trailing unit axis; the row gather then makes entry (r, 0, k) of a 4096×1×64 array entry k of the table's
  selected row. A result's entry (r, 0) is zero plus the sum over k of the products of the user row's and the item
  row's entries: the score of that pair of rows. Every index-by-index fact is stated over arbitrary tables; the
  propagated layers enter only at the end, as whole arrays.
-/
import proofs.«173116_j21852793602105_1_alg».proof.Proof.Gen.ReferenceIdeal.Read
import proofs.«173116_j21852793602105_1_alg».proof.Proof.LibLayerMean
import proofs.«173116_j21852793602105_1_alg».proof.Proof.LibRowGather
import proofs.«173116_j21852793602105_1_alg».proof.Proof.LibRowReductions
import proofs.«173116_j21852793602105_1_alg».proof.Proof.LibRowDots
import proofs.«173116_j21852793602105_1_alg».proof.Proof.LibPairScores
import Idealize.ShloMosaic.Lib.ValueIdx
import Idealize.ShloMosaic.PureOps.Ideal.Laws

open scoped BigOperators

noncomputable section

namespace Cert.ReferenceIdeal.RefValue

open Cert.ReferenceIdeal Cert.ReferenceIdeal.Gen Cert.ReferenceIdeal.Read Idealize.ShloMosaic Idealize.ShloMosaic.ValueIdx
open Cert.Lib.LayerMean Cert.Lib.RowGather Cert.Lib.RowReductions Cert.Lib.RowDots Cert.Lib.PairScores

/-! ## The mean of four tables, as the reference spells it -/

section Pooled
variable (e a b c : (⟨S100000x64, .f32⟩ : BufTy).Contents (Elt Ideal))

/-- A table given a trailing unit axis reads its entry (p, q) at (p, q, 0). -/
theorem unit_axis_apply (y : (⟨S100000x64, .f32⟩ : BufTy).Contents (Elt Ideal)) (p : Fin 100000) (q : Fin 64) :
    broadcastInDim S100000x64x1 ![0, 1] bcast_S100000x64_S100000x64x1_0_1 y (ix3 p q 0) = y (ix2 p q) :=
  broadcastInDim_apply _ bcast_S100000x64_S100000x64x1_0_1 y _ _ (fun ax => match ax with
    | ⟨0, _⟩ => by show p.val = if (100000 : Nat) = 1 then 0 else p.val; rw [if_neg (by decide)]
    | ⟨1, _⟩ => by show q.val = if (64 : Nat) = 1 then 0 else q.val; rw [if_neg (by decide)])

/-- Four tables, each given a trailing unit axis, joined along that axis. -/
def stack : (⟨S100000x64x4, .f32⟩ : BufTy).Contents (Elt Ideal) :=
  concatenate S100000x64x4 2
    [⟨S100000x64x1, broadcastInDim S100000x64x1 ![0, 1] bcast_S100000x64_S100000x64x1_0_1 e⟩,
     ⟨S100000x64x1, broadcastInDim S100000x64x1 ![0, 1] bcast_S100000x64_S100000x64x1_0_1 a⟩,
     ⟨S100000x64x1, broadcastInDim S100000x64x1 ![0, 1] bcast_S100000x64_S100000x64x1_0_1 b⟩,
     ⟨S100000x64x1, broadcastInDim S100000x64x1 ![0, 1] bcast_S100000x64_S100000x64x1_0_1 c⟩]
    concatenates_S100000x64x1_S100000x64x1_S100000x64x1_S100000x64x1_S100000x64x4_d2

/-- Position k of the stack at (p, q) is table k's entry (p, q). -/
theorem stack_apply (p : Fin 100000) (q : Fin 64) (k : Fin 4) :
    stack e a b c (ix3 p q k) = (![e, a, b, c] k) (ix2 p q) := by
  unfold stack
  refine (stack4_apply (n := 100000) (d := 64) _ _ _ _ _ p q k).trans ?_
  match k with
  | ⟨0, _⟩ => exact unit_axis_apply e p q
  | ⟨1, _⟩ => exact unit_axis_apply a p q
  | ⟨2, _⟩ => exact unit_axis_apply b p q
  | ⟨3, _⟩ => exact unit_axis_apply c p q

/-- The host's sum of the stack along its last axis, from the zero constant, at (p, q). -/
theorem stack_sum_apply (p : Fin 100000) (q : Fin 64) :
    Host.reduceAdd (F := Ideal) (stack e a b c) (constant (F := Ideal) S_ .f32 0x00000000#32)
        reducesTo_S100000x64x4_S100000x64_d2 h_S_ (ix2 p q)
      = (constant (F := Ideal) S_ .f32 0x00000000#32) (Shape.Idx.first h_S_) + ∑ k : Fin 4, (![e, a, b, c] k) (ix2 p q) := by
  generalize hy : stack e a b c = y0
  simp only [Host.reduceAdd, Ideal.hostReduceAdd_def]
  rw [Ideal.hostReduceAdd_single reducesTo_S100000x64x4_S100000x64_d2 (by decide)]
  subst hy
  refine congrArg (_ + ·) (Finset.sum_congr rfl fun k _ => ?_)
  refine (congrArg (stack e a b c) (?_ : _ = ix3 p q k)).trans (stack_apply e a b c p q k)
  exact funext fun ax => Fin.ext (by match ax with | ⟨0, _⟩ => rfl | ⟨1, _⟩ => rfl | ⟨2, _⟩ => rfl)

/-- Stacked, summed and divided by four, four tables give their entrywise mean. -/
theorem mean_of_stack :
    Host.divf (F := Ideal)
        (Host.reduceAdd (F := Ideal) (stack e a b c) (constant (F := Ideal) S_ .f32 0x00000000#32)
          reducesTo_S100000x64x4_S100000x64_d2 h_S_)
        (broadcastInDim S100000x64 ![] bcast_S_S100000x64 (constant (F := Ideal) S_ .f32 0x40800000#32))
      = layerMean (s := S100000x64) e a b c := by
  funext i
  obtain ⟨p, q, rfl⟩ : ∃ (p : Fin 100000) (q : Fin 64), i = ix2 p q := ⟨i 0, i 1, eq_ix2 i⟩
  show FloatOps.hostDivf
      (Host.reduceAdd (F := Ideal) (stack e a b c) (constant (F := Ideal) S_ .f32 0x00000000#32)
        reducesTo_S100000x64x4_S100000x64_d2 h_S_ (ix2 p q))
      (broadcastInDim S100000x64 ![] bcast_S_S100000x64 (constant (F := Ideal) S_ .f32 0x40800000#32) (ix2 p q)) = _
  rw [stack_sum_apply, bcastInDim_scalar_apply, constant_apply, constant_apply, Ideal.hostDivf_def, layerMean_apply, mean4]
  rfl

end Pooled

/-! ## The index words -/

section Words
variable (x3 x4 x5 : (⟨S4096x1, .i32⟩ : BufTy).Contents (Elt Ideal))

/-- The user word the gather reads at (r, 0, 0) is the user's index word wrapped. -/
theorem user_word (r : Fin 4096) :
    val_main_v64 (F := Ideal) x3 (ix3 r 0 0) = wrapIndex 100000#32 (x3 (ix2 r 0)) := by
  have e : idx_main_v64 (ix3 r (0 : Fin 1) (0 : Fin 1)) = ix2 r 0 :=
    funext fun a => Fin.ext (by match a with | ⟨0, _⟩ => rfl | ⟨1, _⟩ => rfl)
  rw [val_main_v64_apply, e, val_main_v63_apply, val_main_v60_apply, val_main_v62_apply, val_main_v59_apply,
    val_main_v61_apply, val_main_c_13_apply, val_main_c_14_apply]
  rfl

/-- The positive-item word the gather reads at (r, 0, 0) is the item's index word plus 50000, wrapped. -/
theorem pos_word (r : Fin 4096) :
    val_main_v73 (F := Ideal) x4 (ix3 r 0 0) = wrapIndex 100000#32 (IntOp.addi (x4 (ix2 r 0)) 50000#32) := by
  have e : idx_main_v73 (ix3 r (0 : Fin 1) (0 : Fin 1)) = ix2 r 0 :=
    funext fun a => Fin.ext (by match a with | ⟨0, _⟩ => rfl | ⟨1, _⟩ => rfl)
  rw [val_main_v73_apply, e, val_main_v72_apply, val_main_v69_apply, val_main_v71_apply, val_main_v67_apply,
    val_main_v68_apply, val_main_v70_apply, val_main_v66_apply, val_main_c_15_apply, val_main_c_16_apply, val_main_c_17_apply]
  rfl

/-- The negative-item word the gather reads at (r, 0, 0) is the item's index word plus 50000, wrapped. -/
theorem neg_word (r : Fin 4096) :
    val_main_v82 (F := Ideal) x5 (ix3 r 0 0) = wrapIndex 100000#32 (IntOp.addi (x5 (ix2 r 0)) 50000#32) := by
  have e : idx_main_v82 (ix3 r (0 : Fin 1) (0 : Fin 1)) = ix2 r 0 :=
    funext fun a => Fin.ext (by match a with | ⟨0, _⟩ => rfl | ⟨1, _⟩ => rfl)
  rw [val_main_v82_apply, e, val_main_v81_apply, val_main_v78_apply, val_main_v80_apply, val_main_v76_apply,
    val_main_v77_apply, val_main_v79_apply, val_main_v75_apply, val_main_c_18_apply, val_main_c_19_apply, val_main_c_20_apply]
  rfl

end Words

/-! ## Rows gathered from an arbitrary table, and their scores -/

section Scores
variable (T : (⟨S100000x64, .f32⟩ : BufTy).Contents (Elt Ideal))
variable (x3 x4 x5 : (⟨S4096x1, .i32⟩ : BufTy).Contents (Elt Ideal))

/-- Entry (r, 0, k) of the rows gathered from a table T by a B×1×1 array of words w is entry k of T's row selected
    by word (r, 0, 0). -/
theorem gathered3_apply (w : IVec S4096x1x1 32) (r : Fin 4096) (k : Fin 64) :
    Host.gather gather_S100000x64_S4096x1x1_S4096x1x64_2_0_n_n_0_2_164 T w (ix3 r 0 k)
      = T (ix2 (rowOf 100000 (by decide) (w (ix3 r 0 0))) k) :=
  gather_rows3_apply (N := 100000) (B := 4096) (D := 64) (by decide)
    gather_S100000x64_S4096x1x1_S4096x1x64_2_0_n_n_0_2_164_wf T w r k

theorem user_rows_apply (r : Fin 4096) (k : Fin 64) :
    Host.gather gather_S100000x64_S4096x1x1_S4096x1x64_2_0_n_n_0_2_164 T (val_main_v64 (F := Ideal) x3) (ix3 r 0 k)
      = T (ix2 (rowAt 100000 (by decide) 100000#32 x3 r) k) := by
  rw [gathered3_apply, user_word]
  rfl

theorem pos_rows_apply (r : Fin 4096) (k : Fin 64) :
    Host.gather gather_S100000x64_S4096x1x1_S4096x1x64_2_0_n_n_0_2_164 T (val_main_v73 (F := Ideal) x4) (ix3 r 0 k)
      = T (ix2 (rowAtOffset 100000 (by decide) 100000#32 50000#32 x4 r) k) := by
  rw [gathered3_apply, pos_word]
  rfl

theorem neg_rows_apply (r : Fin 4096) (k : Fin 64) :
    Host.gather gather_S100000x64_S4096x1x1_S4096x1x64_2_0_n_n_0_2_164 T (val_main_v82 (F := Ideal) x5) (ix3 r 0 k)
      = T (ix2 (rowAtOffset 100000 (by decide) 100000#32 50000#32 x5 r) k) := by
  rw [gathered3_apply, neg_word]
  rfl

/-- The host's sum along the last axis of the entrywise product of two gathered 4096×1×64 arrays, from the zero
    constant, is the column of pair scores of the table, when each gathered entry (r, 0, k) is the table's entry k
    of the selected row. -/
theorem scores_of_gathered (U P : FVec Ideal S4096x1x64 .f32) (ru rp : Fin 4096 → Fin 100000)
    (hU : ∀ (r : Fin 4096) (k : Fin 64), U (ix3 r 0 k) = T (ix2 (ru r) k))
    (hP : ∀ (r : Fin 4096) (k : Fin 64), P (ix3 r 0 k) = T (ix2 (rp r) k)) :
    Host.reduceAdd (F := Ideal) (mulf U P) (constant (F := Ideal) S_ .f32 0x00000000#32)
        reducesTo_S4096x1x64_S4096x1_d2 h_S_
      = pairScores (N := 100000) (B := 4096) (D := 64) T ru rp := by
  funext j
  rw [eq_col j, pairScores_apply]
  generalize hr : (⟨(j 0).val, idx2_lt0 j⟩ : Fin 4096) = r
  generalize hy : mulf U P = y0
  simp only [Host.reduceAdd, Ideal.hostReduceAdd_def]
  rw [Ideal.hostReduceAdd_single reducesTo_S4096x1x64_S4096x1_d2 (by decide)]
  subst hy
  rw [constant_apply, Ideal.ofBits_zero_f32, zero_add]
  refine Finset.sum_congr rfl fun k _ => ?_
  refine (congrArg (mulf U P) (?_ : _ = ix3 r 0 k)).trans ?_
  · exact funext fun ax => Fin.ext (by match ax with | ⟨0, _⟩ => rfl | ⟨1, _⟩ => rfl | ⟨2, _⟩ => rfl)
  · exact congr (congrArg (fun u v : EReal => u * v) (hU r k)) (hP r k)

end Scores

/-! ## The reference's stages -/

section Stages
variable (x0 : (⟨S100000x64, .f32⟩ : BufTy).Contents (Elt Ideal)) (x1 x2 : (⟨S1200000, .i32⟩ : BufTy).Contents (Elt Ideal))
variable (x3 x4 x5 : (⟨S4096x1, .i32⟩ : BufTy).Contents (Elt Ideal))

/-- The pooled table is the entrywise mean of the embeddings and the three propagated layers. -/
theorem pooled_eq :
    val_main_v58 (F := Ideal) x0 x1 x2
      = layerMean (s := S100000x64) x0 (val_main_v22 (F := Ideal) x0 x1 x2) (val_main_v36 (F := Ideal) x0 x1 x2)
          (val_main_v50 (F := Ideal) x0 x1 x2) :=
  mean_of_stack x0 (val_main_v22 (F := Ideal) x0 x1 x2) (val_main_v36 (F := Ideal) x0 x1 x2) (val_main_v50 (F := Ideal) x0 x1 x2)

/-- The first result is the column of scores of each user's row against its positive item's row of the pooled table. -/
theorem pos_scores_eq :
    val_main_v85 (F := Ideal) x0 x1 x2 x3 x4
      = pairScores (N := 100000) (B := 4096) (D := 64) (val_main_v58 (F := Ideal) x0 x1 x2)
          (rowAt 100000 (by decide) 100000#32 x3) (rowAtOffset 100000 (by decide) 100000#32 50000#32 x4) :=
  scores_of_gathered (val_main_v58 (F := Ideal) x0 x1 x2) _ _ _ _
    (user_rows_apply (val_main_v58 (F := Ideal) x0 x1 x2) x3) (pos_rows_apply (val_main_v58 (F := Ideal) x0 x1 x2) x4)

/-- The second result is the column of scores of each user's row against its negative item's row of the pooled table. -/
theorem neg_scores_eq :
    val_main_v87 (F := Ideal) x0 x1 x2 x3 x5
      = pairScores (N := 100000) (B := 4096) (D := 64) (val_main_v58 (F := Ideal) x0 x1 x2)
          (rowAt 100000 (by decide) 100000#32 x3) (rowAtOffset 100000 (by decide) 100000#32 50000#32 x5) :=
  scores_of_gathered (val_main_v58 (F := Ideal) x0 x1 x2) _ _ _ _
    (user_rows_apply (val_main_v58 (F := Ideal) x0 x1 x2) x3) (neg_rows_apply (val_main_v58 (F := Ideal) x0 x1 x2) x5)

end Stages

end Cert.ReferenceIdeal.RefValue

end
-- ==== Proof.lean ====
/-
  The certificate of the two-kernel recommender scorer against its reference. Both programs first propagate the
  embedding table three times over the graph (the same host operations on both sides), pool the four tables by their
  entrywise mean, pick the rows of the pooled table that the user and item index arrays select, and score each user
  row against its positive and its negative item row by a dot product. The kernel program pools with a kernel that
  multiplies the running sum by one quarter, flattens the index arrays before wrapping them, and scores with a kernel
  that sums along the lanes; the reference stacks the tables and divides their sum by four, wraps the index arrays in
  place, and sums on the host. On the extended reals these agree at every input: division by 4 is multiplication by
  1/4 at the infinities too, sums are regrouped but never distributed, and the gathers read the same clamped rows.
  So the value claim needs nothing of the precondition. The three frame claims are the generated frames and the
  reference's generated run; the ideal pass rewrote nothing.
-/
import proofs.«173116_j21852793602105_1_alg».proof.Defs
import proofs.«173116_j21852793602105_1_alg».proof.Proof.Gen.Kernel
import proofs.«173116_j21852793602105_1_alg».proof.Proof.Gen.Kernel.Skeleton
import proofs.«173116_j21852793602105_1_alg».proof.Proof.Gen.Kernel.Launch
import proofs.«173116_j21852793602105_1_alg».proof.Proof.Gen.Kernel.Points
import proofs.«173116_j21852793602105_1_alg».proof.Proof.Gen.Kernel.Frame
import proofs.«173116_j21852793602105_1_alg».proof.Proof.Gen.KernelIdeal
import proofs.«173116_j21852793602105_1_alg».proof.Proof.Gen.KernelIdeal.Skeleton
import proofs.«173116_j21852793602105_1_alg».proof.Proof.Gen.KernelIdeal.Launch
import proofs.«173116_j21852793602105_1_alg».proof.Proof.Gen.KernelIdeal.Points
import proofs.«173116_j21852793602105_1_alg».proof.Proof.Gen.KernelIdeal.Frame
import proofs.«173116_j21852793602105_1_alg».proof.Proof.Gen.ReferenceIdeal
import proofs.«173116_j21852793602105_1_alg».proof.Proof.Gen.ReferenceIdeal.Run
import proofs.«173116_j21852793602105_1_alg».proof.Proof.Gen.ReferenceIdeal.Read
import proofs.«173116_j21852793602105_1_alg».proof.Proof.Gen.Pre_finite_inputs
import proofs.«173116_j21852793602105_1_alg».proof.Proof.KernelRun
import proofs.«173116_j21852793602105_1_alg».proof.Proof.KernelValue
import proofs.«173116_j21852793602105_1_alg».proof.Proof.RefValue
import Idealize.ShloMosaic.Adequacy
import Idealize.ShloMosaic.Init

noncomputable section

namespace Cert.Proof

open Idealize.ShloMosaic Idealize.SL.Sem
open Cert.Lib.PairScores

/-- The word-level kernel program runs without a fault and leaves its arguments as launched. -/
theorem frame_kernel : Cert.frame_Kernel := fun m ρ _ => Cert.Kernel.Gen.frame m ρ

/-- So does the idealized kernel program. -/
theorem frame_kernel_ideal : Cert.frame_KernelIdeal := fun m ρ _ => Cert.KernelIdeal.Gen.frame m ρ

/-- So does the idealized reference: its run with the two results dropped. -/
theorem frame_reference_ideal : Cert.frame_ReferenceIdeal := fun m ρ _ =>
  (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

/-- From memories agreeing on the arguments both idealized programs end with the same two columns of scores: per
    row, the dot product of the user's row with the positive (respectively negative) item's row of the pooled table. -/
theorem algebraic : Cert.algebraic_KernelIdeal_ReferenceIdeal := by
  intro m ρ m' ρ' _ hagree
  refine ⟨fun c => pairScores (N := 100000) (B := 4096) (D := 64)
      (Cert.Lib.LayerMean.layerMean (s := Cert.KernelIdeal.S100000x64) (m ((c.tc : Thread Cert.KernelIdeal.nD Cert.KernelIdeal.τ).loc Cert.KernelIdeal.main_arg0))
        (Cert.ReferenceIdeal.Read.val_main_v22 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)))
        (Cert.ReferenceIdeal.Read.val_main_v36 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)))
        (Cert.ReferenceIdeal.Read.val_main_v50 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))))
      (rowAt 100000 (by decide) 100000#32 (m ((c.tc : Thread Cert.KernelIdeal.nD Cert.KernelIdeal.τ).loc Cert.KernelIdeal.main_arg3)))
      (rowAtOffset 100000 (by decide) 100000#32 50000#32 (m ((c.tc : Thread Cert.KernelIdeal.nD Cert.KernelIdeal.τ).loc Cert.KernelIdeal.main_arg4))),
    fun c => pairScores (N := 100000) (B := 4096) (D := 64)
      (Cert.Lib.LayerMean.layerMean (s := Cert.KernelIdeal.S100000x64) (m ((c.tc : Thread Cert.KernelIdeal.nD Cert.KernelIdeal.τ).loc Cert.KernelIdeal.main_arg0))
        (Cert.ReferenceIdeal.Read.val_main_v22 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)))
        (Cert.ReferenceIdeal.Read.val_main_v36 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)))
        (Cert.ReferenceIdeal.Read.val_main_v50 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))))
      (rowAt 100000 (by decide) 100000#32 (m ((c.tc : Thread Cert.KernelIdeal.nD Cert.KernelIdeal.τ).loc Cert.KernelIdeal.main_arg3)))
      (rowAtOffset 100000 (by decide) 100000#32 50000#32 (m ((c.tc : Thread Cert.KernelIdeal.nD Cert.KernelIdeal.τ).loc Cert.KernelIdeal.main_arg5))), ?_, ?_⟩
  · exact (θ_run Cert.KernelIdeal.defs _ _).mono
      (fun r h c => ⟨(h c).1.trans (Cert.KernelIdeal.KernelValue.result_pos m ρ c),
        (h c).2.1.trans (Cert.KernelIdeal.KernelValue.result_neg m ρ c), (h c).2.2⟩)
      (Cert.KernelIdeal.RunValue.run_results m ρ)
  · refine (θ_run Cert.ReferenceIdeal.defs _ _).mono (fun r h c => ⟨(h c).1.trans ?_, (h c).2.1.trans ?_, (h c).2.2⟩)
      (Cert.ReferenceIdeal.Value.run (F := Ideal) m' ρ')
    · rw [Cert.ReferenceIdeal.Read.val_main_v85_eq, (hagree c).1, (hagree c).2.1, (hagree c).2.2.1, (hagree c).2.2.2.1,
        (hagree c).2.2.2.2.1, Cert.ReferenceIdeal.RefValue.pos_scores_eq, Cert.ReferenceIdeal.RefValue.pooled_eq]
    · rw [Cert.ReferenceIdeal.Read.val_main_v87_eq, (hagree c).1, (hagree c).2.1, (hagree c).2.2.1, (hagree c).2.2.2.1,
        (hagree c).2.2.2.2.2, Cert.ReferenceIdeal.RefValue.neg_scores_eq, Cert.ReferenceIdeal.RefValue.pooled_eq]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
